-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x8x8x64 : Shape := ⟨5, ![4, 64, 8, 8, 64]⟩
abbrev S128x64 : Shape := ⟨2, ![128, 64]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩

class Facts : Prop where
  shapeCasts_S4x64x8x8x64_S4x4096x64 : S4x64x8x8x64.ShapeCasts S4x4096x64
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  reducesTo_S4x4096x4096_S4x4096_d2 : S4x4096x4096.ReducesTo [2] S4x4096
  bcast_S_S4x64x8x8x64 : S_.BroadcastsInDim S4x64x8x8x64 (![] : Fin 0 → Fin S4x64x8x8x64.rank)
  reducesTo_S4x64x8x8x64_S_d0_1_2_3_4 : S4x64x8x8x64.ReducesTo [0, 1, 2, 3, 4] S_
  bcast_S_S128x64 : S_.BroadcastsInDim S128x64 (![] : Fin 0 → Fin S128x64.rank)
  reducesTo_S128x64_S_d0_1 : S128x64.ReducesTo [0, 1] S_
  bcast_S_S4x4096 : S_.BroadcastsInDim S4x4096 (![] : Fin 0 → Fin S4x4096.rank)
  reducesTo_S4x4096_S_d0_1 : S4x4096.ReducesTo [0, 1] S_
  dot_S4x4096x64_S4x4096x64_S4x4096x4096_2_2_1_1_0_0_wf : DotDims.WF S4x4096x64 S4x4096x64 S4x4096x4096 [2] [2] [1] [1] [0] [0]

variable [Facts]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def fn_part1 {F : FTy → Type} [FloatOps F] (main_v10 : FVec F S4x4096 .f32) (main_v14 : IVec S_ 1) (main_v17 : IVec S128x64 1) : IVec S_ 1 :=
  let main_c_4 : IVec S_ 1 := constantI S_ 1 1#1
  let main_v18 : IVec S_ 1 := (fun x v => Host.reduce IntOp.andi x v reducesTo_S128x64_S_d0_1 h_S_) main_v17 main_c_4
  let main_v19 : IVec S_ 1 := andi main_v14 main_v18
  let main_cst_5 : FVec F S_ .f32 := constant S_ .f32 0x322BCC77#32
  let main_v20 : FVec F S4x4096 .f32 := broadcastInDim S4x4096 ![] bcast_S_S4x4096 main_cst_5
  let main_v21 : FVec F S4x4096 .f32 := addf main_v10 main_v20
  let main_cst_6 : FVec F S_ .f32 := constant S_ .f32 0x00000000#32
  let main_v22 : FVec F S4x4096 .f32 := broadcastInDim S4x4096 ![] bcast_S_S4x4096 main_cst_6
  let main_v23 : IVec S4x4096 1 := cmpf .ogt main_v21 main_v22
  let main_c_7 : IVec S_ 1 := constantI S_ 1 1#1
  let main_v24 : IVec S_ 1 := (fun x v => Host.reduce IntOp.andi x v reducesTo_S4x4096_S_d0_1 h_S_) main_v23 main_c_7
  let main_v25 : IVec S_ 1 := andi main_v19 main_v24
  main_v25

def fn {F : FTy → Type} [FloatOps F] (main_arg0 : FVec F S4x64x8x8x64 .f32) (main_arg1 : FVec F S128x64 .f32) : IVec S_ 1 :=
  let main_v0 : FVec F S4x4096x64 .f32 := shapeCast S4x4096x64 main_arg0 shapeCasts_S4x64x8x8x64_S4x4096x64
  let main_v1 : FVec F S4x4096x64 .f32 := mulf main_v0 main_v0
  let main_cst : FVec F S_ .f32 := constant S_ .f32 0x00000000#32
  let main_v2 : FVec F S4x4096 .f32 := (fun x v => Host.reduceAdd x v reducesTo_S4x4096x64_S4x4096_d2 h_S_) main_v1 main_cst
  let main_v3 : FVec F S4x4096x1 .f32 := broadcastInDim S4x4096x1 ![0, 1] bcast_S4x4096_S4x4096x1_0_1 main_v2
  let main_v4 : FVec F S4x4096x1 .f32 := Host.sqrt main_v3
  let main_cst_0 : FVec F S_ .f32 := constant S_ .f32 0x2B8CBCCC#32
  let main_v5 : FVec F S4x4096x1 .f32 := broadcastInDim S4x4096x1 ![] bcast_S_S4x4096x1 main_cst_0
  let main_v6 : FVec F S4x4096x1 .f32 := maximumf main_v4 main_v5
  let main_v7 : FVec F S4x4096x64 .f32 := broadcastInDim S4x4096x64 ![0, 1, 2] bcast_S4x4096x1_S4x4096x64_0_1_2 main_v6
  let main_v8 : FVec F S4x4096x64 .f32 := Host.divf main_v0 main_v7
  let main_v9 : FVec F S4x4096x4096 .f32 := (fun l r => Host.dotGeneral dot_S4x4096x64_S4x4096x64_S4x4096x4096_2_2_1_1_0_0 none l r) main_v8 main_v8
  let main_cst_1 : FVec F S_ .f32 := constant S_ .f32 0x00000000#32
  let main_v10 : FVec F S4x4096 .f32 := (fun x v => Host.reduceAdd x v reducesTo_S4x4096x4096_S4x4096_d2 h_S_) main_v9 main_cst_1
  let main_v11 : FVec F S4x64x8x8x64 .f32 := Host.absf main_arg0
  let main_cst_2 : FVec F S_ .f32 := constant S_ .f32 0x7F800000#32
  let main_v12 : FVec F S4x64x8x8x64 .f32 := broadcastInDim S4x64x8x8x64 ![] bcast_S_S4x64x8x8x64 main_cst_2
  let main_v13 : IVec S4x64x8x8x64 1 := cmpf .olt main_v11 main_v12
  let main_c : IVec S_ 1 := constantI S_ 1 1#1
  let main_v14 : IVec S_ 1 := (fun x v => Host.reduce IntOp.andi x v reducesTo_S4x64x8x8x64_S_d0_1_2_3_4 h_S_) main_v13 main_c
  let main_v15 : FVec F S128x64 .f32 := Host.absf main_arg1
  let main_cst_3 : FVec F S_ .f32 := constant S_ .f32 0x7F800000#32
  let main_v16 : FVec F S128x64 .f32 := broadcastInDim S128x64 ![] bcast_S_S128x64 main_cst_3
  let main_v17 : IVec S128x64 1 := cmpf .olt main_v15 main_v16
  fn_part1 (F := F) main_v10 main_v14 main_v17
-- ==== Kernel.lean ====
abbrev S4x64x8x8x64 : Shape := ⟨5, ![4, 64, 8, 8, 64]⟩
abbrev S128x64 : Shape := ⟨2, ![128, 64]⟩
abbrev S4x4096x64 : Shape := ⟨3, ![4, 4096, 64]⟩
abbrev S4x64x1x1x64 : Shape := ⟨5, ![4, 64, 1, 1, 64]⟩
abbrev S4x64x64 : Shape := ⟨3, ![4, 64, 64]⟩
abbrev S4x64x128 : Shape := ⟨3, ![4, 64, 128]⟩
abbrev S1x4096x64 : Shape := ⟨3, ![1, 4096, 64]⟩
abbrev S1x64x64 : Shape := ⟨3, ![1, 64, 64]⟩
abbrev S1x64x128 : Shape := ⟨3, ![1, 64, 128]⟩
abbrev S4096x64 : Shape := ⟨2, ![4096, 64]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S64x64 : Shape := ⟨2, ![64, 64]⟩
abbrev S64x128 : Shape := ⟨2, ![64, 128]⟩
abbrev S64x1 : Shape := ⟨2, ![64, 1]⟩

abbrev nBuf : Space → Nat
  | .hbm => 6
  | .vmem => 7
  | .smem => 0
  | _ => 0

abbrev bufTy : (tb : Table) → Fin (tcTables nBuf tb) → BufTy
  | .hbm, ⟨0, _⟩ => ⟨S4x64x8x8x64, .f32⟩
  | .hbm, ⟨1, _⟩ => ⟨S128x64, .f32⟩
  | .hbm, ⟨2, _⟩ => ⟨S4x4096x64, .f32⟩
  | .hbm, ⟨3, _⟩ => ⟨S4x64x1x1x64, .f32⟩
  | .hbm, ⟨4, _⟩ => ⟨S4x64x64, .f32⟩
  | .hbm, ⟨5, _⟩ => ⟨S4x64x128, .f32⟩
  | .local _ .vmem, ⟨0, _⟩ => ⟨S1x4096x64, .f32⟩
  | .local _ .vmem, ⟨1, _⟩ => ⟨S1x4096x64, .f32⟩
  | .local _ .vmem, ⟨2, _⟩ => ⟨S1x64x64, .f32⟩
  | .local _ .vmem, ⟨3, _⟩ => ⟨S1x64x64, .f32⟩
  | .local _ .vmem, ⟨4, _⟩ => ⟨S128x64, .f32⟩
  | .local _ .vmem, ⟨5, _⟩ => ⟨S1x64x128, .f32⟩
  | .local _ .vmem, ⟨6, _⟩ => ⟨S1x64x128, .f32⟩
  | _, _ => ⟨S4x64x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x64x8x8x64_S4x4096x64 : S4x64x8x8x64.ShapeCasts S4x4096x64
  slices_S4x64x8x8x64_S4x64x1x1x64_0_0_4_4_0 : S4x64x8x8x64.Slices ![0, 0, 4, 4, 0] S4x64x1x1x64
  shapeCasts_S4x64x1x1x64_S4x64x64 : S4x64x1x1x64.ShapeCasts S4x64x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  reduces_S4096x64_S64 : S4096x64.Reduces [0] S64
  shapeCasts_S64_S1x64 : S64.ShapeCasts S1x64
  broadcasts_S1x64_S4096x64 : S1x64.Broadcasts S4096x64
  inb_S128x64_S128x64_0_0 : ∀ a, (![0, 0] : Fin 2 → Nat) a + S128x64.size a ≤ S128x64.size a
  h_S128x64 : 0 < S128x64.numel
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  reduces_S64x64_S64 : S64x64.Reduces [1] S64
  shapeCasts_S64_S64x1 : S64.ShapeCasts S64x1
  broadcasts_S64x1_S64x64 : S64x1.Broadcasts S64x64
  broadcasts_S1x64_S64x64 : S1x64.Broadcasts S64x64
  broadcasts_S64x1_S64x128 : S64x1.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  dot_S4096x64_S4096x64_S64x64_0_0_1_1_n_n_wf : DotDims.WF S4096x64 S4096x64 S64x64 [0] [0] [1] [1] [] []
  dot_S64x64_S128x64_S64x128_1_1_0_0_n_n_wf : DotDims.WF S64x64 S128x64 S64x128 [1] [1] [0] [0] [] []
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x4096x64.size a
  hwx0_0 : ∀ i : grid0.Coords, EltTy.bits .f32 = 32 ∨ (Rect.block (s := S4x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S4x64x64.size a
  hwx0_1 : ∀ i : grid0.Coords, EltTy.bits .f32 = 32 ∨ (Rect.block (s := S4x64x64) S1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128.size a ≤ S4x64x128.size a
  hwx0_3 : ∀ i : grid0.Coords, EltTy.bits .f32 = 32 ∨ (Rect.block (s := S4x64x128) S1x64x128.size (cc0_transform_3 i) (hinb0_3 i)).WholeWords (EltTy.packing .f32)

variable [Facts₀]

def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S64x64_S128x64_S64x128_1_1_0_0_n_n : DotDims S64x64 S128x64 S64x128 where
  lhsContracting := [1]
  rhsContracting := [1]
  lhsNonContracting := [0]
  rhsNonContracting := [0]
  lhsBatch := []
  rhsBatch := []
  wf := dot_S64x64_S128x64_S64x128_1_1_0_0_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x64x8x8x64 : Shape := ⟨5, ![4, 64, 8, 8, 64]⟩
abbrev S128x64 : Shape := ⟨2, ![128, 64]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S4x4096x128 : Shape := ⟨3, ![4, 4096, 128]⟩
abbrev S4x64x8x8x128 : Shape := ⟨5, ![4, 64, 8, 8, 128]⟩
abbrev S4x64x1x1x128 : Shape := ⟨5, ![4, 64, 1, 1, 128]⟩
abbrev S4x64x128 : Shape := ⟨3, ![4, 64, 128]⟩

abbrev nBuf : Space → Nat
  | .hbm => 33
  | .vmem => 0
  | .smem => 0
  | _ => 0

abbrev bufTy : (tb : Table) → Fin (tcTables nBuf tb) → BufTy
  | .hbm, ⟨0, _⟩ => ⟨S4x64x8x8x64, .f32⟩
  | .hbm, ⟨1, _⟩ => ⟨S128x64, .f32⟩
  | .hbm, ⟨2, _⟩ => ⟨S4x4096x64, .f32⟩
  | .hbm, ⟨3, _⟩ => ⟨S4x4096x64, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S4x4096x64, .f32⟩
  | .hbm, ⟨12, _⟩ => ⟨S4x4096x64, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x1x4096, .f32⟩
  | .hbm, ⟨26, _⟩ => ⟨S4x4096x4096, .f32⟩
  | .hbm, ⟨27, _⟩ => ⟨S4x4096x4096, .f32⟩
  | .hbm, ⟨28, _⟩ => ⟨S4x4096x64, .f32⟩
  | .hbm, ⟨29, _⟩ => ⟨S4x4096x128, .f32⟩
  | .hbm, ⟨30, _⟩ => ⟨S4x64x8x8x128, .f32⟩
  | .hbm, ⟨31, _⟩ => ⟨S4x64x1x1x128, .f32⟩
  | .hbm, ⟨32, _⟩ => ⟨S4x64x128, .f32⟩
  | _, _ => ⟨S4x64x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  shapeCasts_S4x64x8x8x64_S4x4096x64 : S4x64x8x8x64.ShapeCasts S4x4096x64
  reducesTo_S4x4096x64_S4x4096_d2 : S4x4096x64.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  reducesTo_S4x4096x4096_S4x4096_d2 : S4x4096x4096.ReducesTo [2] S4x4096
  bcast_S_S4x4096 : S_.BroadcastsInDim S4x4096 (![] : Fin 0 → Fin S4x4096.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  shapeCasts_S4x4096x128_S4x64x8x8x128 : S4x4096x128.ShapeCasts S4x64x8x8x128
  slices_S4x64x8x8x128_S4x64x1x1x128_0_0_4_4_0 : S4x64x8x8x128.Slices ![0, 0, 4, 4, 0] S4x64x1x1x128
  shapeCasts_S4x64x1x1x128_S4x64x128 : S4x64x1x1x128.ShapeCasts S4x64x128
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S128x64_S4x4096x128_2_1_01_0_n_n_wf : DotDims.WF S4x4096x64 S128x64 S4x4096x128 [2] [1] [0, 1] [0] [] []

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S128x64_S4x4096x128_2_1_01_0_n_n : DotDims S4x4096x64 S128x64 S4x4096x128 where
  lhsContracting := [2]
  rhsContracting := [1]
  lhsNonContracting := [0, 1]
  rhsNonContracting := [0]
  lhsBatch := []
  rhsBatch := []
  wf := dot_S4x4096x64_S128x64_S4x4096x128_2_1_01_0_n_n_wf

class Facts : Prop extends Facts₀ where

variable [Facts]
-- ==== Proof.GcnSpec.lean ====
/-
  The mathematics both programs compute, written once over the extended reals with abstract finite index
  types: `S` rows of one group, `K` features, `O` output channels.

  A row `x` is normalised by `den x = max (√(Σ_k x_k²)) ε₁` to `unit x`. The kernel never forms the S × S
  affinity: it sums the normalised rows into `colsum`, takes a row's degree as `unit x · colsum`, scales by
  `rsqrt (deg + ε₂)`, contracts the rows into the K × K matrix `mmat`, multiplies by the weights (`mw`) and
  only then by the one row it keeps (`kerOut`). The reference forms the affinity `aff`, sums its rows to
  the degree, scales by `(deg + ε₂) ^ (-1/2)` on both sides and contracts with the rows and the weights
  (`refOut`). The two agree wherever every entry is a real number and every `deg + ε₂` is positive
  (Proof/GcnLaw.lean); a negative `deg + ε₂` separates them (`rsqrt` and the power differ there).

  Last, the arrays: a group's rows inside the five-axis input, the centre row the programs keep, and the two
  result arrays as functions of the input arrays.
-/
import Idealize.ShloMosaic.PureOps.Ideal
import Idealize.ShloMosaic.Lib.ValueIdx

noncomputable section

open scoped BigOperators

namespace Cert.Gcn

open Idealize.ShloMosaic Idealize.ShloMosaic.ValueIdx

variable {S K O : Type} [Fintype S] [Fintype K] [Fintype O]

/-- The clamp under the norm, `f32(1e-12)`. -/
def eps1 : EReal := Ideal.ofBits .f32 0x2B8CBCCC#32
/-- The shift under the inverse square root, `f32(1e-8)`. -/
def eps2 : EReal := Ideal.ofBits .f32 0x322BCC77#32
/-- The reference's exponent, `-0.5`. -/
def mhalf : EReal := Ideal.ofBits .f32 0xBF000000#32

/-- A row's clamped Euclidean norm. -/
def den (x : K → EReal) : EReal := max (Ideal.sqrt (∑ k, x k * x k)) eps1
/-- The normalised row. -/
def unit (x : K → EReal) (k : K) : EReal := Ideal.div (x k) (den x)

/-! ### The kernel's arrangement -/

/-- The sum of the normalised rows. -/
def colsum (X : S → K → EReal) (k : K) : EReal := ∑ s, unit (X s) k
/-- A row's degree: its normalised form against the column sum. -/
def degK (X : S → K → EReal) (x : K → EReal) : EReal := ∑ k, unit x k * colsum X k
/-- The kernel's scale of a row. -/
def disK (X : S → K → EReal) (x : K → EReal) : EReal := Ideal.rsqrt (degK X x + eps2)
/-- Normalised rows against scaled rows, contracted over the rows. -/
def mmat (X : S → K → EReal) (j k : K) : EReal := ∑ s, unit (X s) j * (disK X (X s) * X s k)
/-- That matrix against the weights. -/
def mw (X : S → K → EReal) (W : O → K → EReal) (j : K) (o : O) : EReal := ∑ k, mmat X j k * W o k
/-- The kernel's result for the row `x` of the group `X`. -/
def kerOut (X : S → K → EReal) (W : O → K → EReal) (x : K → EReal) (o : O) : EReal :=
  disK X x * ∑ j, unit x j * mw X W j o

/-! ### The reference's arrangement -/

/-- The cosine affinity of two rows. -/
def aff (X : S → K → EReal) (s t : S) : EReal := ∑ k, unit (X s) k * unit (X t) k
/-- A row's degree: its affinities summed. -/
def degR (X : S → K → EReal) (s : S) : EReal := ∑ t, aff X s t
/-- The reference's scale of a row. -/
def disR (X : S → K → EReal) (s : S) : EReal := Ideal.pow (degR X s + eps2) mhalf
/-- The reference's result for row `s`. -/
def refOut (X : S → K → EReal) (W : O → K → EReal) (s : S) (o : O) : EReal :=
  ∑ k, (∑ t, ((disR X s * aff X s t) * disR X t) * X t k) * W o k

/-! ### The arrays -/

/-- Row `s = 64 n + 8 a + b` of group `g` inside the input `[4, 64, 8, 8, 64]`. -/
def rowsOf (A0 : (⟨5, ![4, 64, 8, 8, 64]⟩ : Shape).Idx → EReal) (g : Fin 4) (s : Fin 4096) (k : Fin 64) : EReal :=
  A0 (ix5 g (⟨s.val / 64, by omega⟩ : Fin 64) (⟨s.val / 8 % 8, by omega⟩ : Fin 8) (⟨s.val % 8, by omega⟩ : Fin 8) k)
/-- The weights `[128, 64]` by output channel and feature. -/
def weights (A1 : (⟨2, ![128, 64]⟩ : Shape).Idx → EReal) (o : Fin 128) (k : Fin 64) : EReal := A1 (ix2 o k)
/-- The row both programs keep for node `n`: `(n, 4, 4)`. -/
def centre (n : Fin 64) : Fin 4096 := ⟨n.val * 64 + 36, by omega⟩

theorem rowsOf_centre (A0 : (⟨5, ![4, 64, 8, 8, 64]⟩ : Shape).Idx → EReal) (g : Fin 4) (n : Fin 64) (k : Fin 64) :
    rowsOf A0 g (centre n) k = A0 (ix5 g n (4 : Fin 8) (4 : Fin 8) k) := by
  unfold rowsOf centre
  refine congrArg A0 (funext fun d => ?_)
  have hn := n.isLt
  match d with
  | ⟨0, _⟩ => rfl
  | ⟨1, _⟩ => exact Fin.ext (by show (n.val * 64 + 36) / 64 = n.val; omega)
  | ⟨2, _⟩ => exact Fin.ext (by show (n.val * 64 + 36) / 8 % 8 = 4; omega)
  | ⟨3, _⟩ => exact Fin.ext (by show (n.val * 64 + 36) % 8 = 4; omega)
  | ⟨4, _⟩ => rfl

/-- The kernel's result array `[4, 64, 128]` as a function of the input arrays. -/
def kerArr (A0 : (⟨5, ![4, 64, 8, 8, 64]⟩ : Shape).Idx → EReal) (A1 : (⟨2, ![128, 64]⟩ : Shape).Idx → EReal) :
    (⟨3, ![4, 64, 128]⟩ : Shape).Idx → EReal :=
  fun i => kerOut (rowsOf A0 (i 0)) (weights A1) (rowsOf A0 (i 0) (centre (i 1))) (i 2)
/-- The reference's result array. -/
def refArr (A0 : (⟨5, ![4, 64, 8, 8, 64]⟩ : Shape).Idx → EReal) (A1 : (⟨2, ![128, 64]⟩ : Shape).Idx → EReal) :
    (⟨3, ![4, 64, 128]⟩ : Shape).Idx → EReal :=
  fun i => refOut (rowsOf A0 (i 0)) (weights A1) (centre (i 1)) (i 2)

theorem kerArr_ix3 (A0 : (⟨5, ![4, 64, 8, 8, 64]⟩ : Shape).Idx → EReal) (A1 : (⟨2, ![128, 64]⟩ : Shape).Idx → EReal)
    (g : Fin 4) (n : Fin 64) (o : Fin 128) :
    kerArr A0 A1 (ix3 g n o) = kerOut (rowsOf A0 g) (weights A1) (rowsOf A0 g (centre n)) o := rfl
theorem refArr_ix3 (A0 : (⟨5, ![4, 64, 8, 8, 64]⟩ : Shape).Idx → EReal) (A1 : (⟨2, ![128, 64]⟩ : Shape).Idx → EReal)
    (g : Fin 4) (n : Fin 64) (o : Fin 128) :
    refArr A0 A1 (ix3 g n o) = refOut (rowsOf A0 g) (weights A1) (centre n) o := rfl

end Cert.Gcn

end
-- ==== Proof.GcnLaw.lean ====
/-
  The law that joins the two arrangements: on real entries with every `deg + ε₂` positive, the kernel's
  result for a row of the group is the reference's result for that row.

  The route: every entry is the cast of a real number, so every quantity of Proof/GcnSpec.lean is the cast of
  its real counterpart — a sum of casts is the cast of the sum, `Σ x²` is non-negative so the square root is
  the real one, the clamped norm is at least `ε₁ > 0` so the quotient is the real quotient. The two degrees
  are one real number (`Σ_k u_sk (Σ_t u_tk) = Σ_t Σ_k u_sk u_tk`), and on a positive real the inverse square
  root and the power `-1/2` are both `(√r)⁻¹`. What is left is an identity of finite real sums: both sides
  are `Σ_j Σ_k Σ_t d_s u_sj u_tj d_t x_tk w_ok`, summed in two orders.
-/
import proofs.«139792_j69733089017908_2_alg».proof.Proof.GcnSpec

noncomputable section

open scoped BigOperators

namespace Cert.Gcn

open Idealize.ShloMosaic

variable {S K O : Type} [Fintype S] [Fintype K] [Fintype O]

namespace Law

/-! ### Casts of sums and maxima -/

/-- The sum of the casts of finitely many reals is the cast of their sum. -/
theorem coe_sum_univ {ι : Type} [Fintype ι] (f : ι → ℝ) :
    (∑ i, ((f i : ℝ) : EReal)) = ((∑ i, f i : ℝ) : EReal) := by
  classical
  have h : ∀ s : Finset ι, (∑ i ∈ s, ((f i : ℝ) : EReal)) = ((∑ i ∈ s, f i : ℝ) : EReal) := by
    intro s
    induction s using Finset.induction_on with
    | empty => simp
    | insert a s ha ih => rw [Finset.sum_insert ha, Finset.sum_insert ha, ih, EReal.coe_add]
  exact h _

/-- The maximum of the casts of two reals is the cast of their maximum. -/
theorem coe_max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-! ### The three constants -/

/-- The clamp `ε₁` as a real: `9223372 · 2⁻⁶³`. -/
def e1 : ℝ := 9223372 * (2 ^ 63)⁻¹
/-- The shift `ε₂` as a real: `11258999 · 2⁻⁵⁰`. -/
def e2 : ℝ := 11258999 * (2 ^ 50)⁻¹

theorem eps1_coe : eps1 = ((e1 : ℝ) : EReal) := by
  unfold eps1 e1
  simp [Ideal.ofBits, Ideal.ieee, -EReal.coe_mul]

theorem eps2_coe : eps2 = ((e2 : ℝ) : EReal) := by
  unfold eps2 e2
  simp [Ideal.ofBits, Ideal.ieee, -EReal.coe_mul]

theorem mhalf_coe : mhalf = (((-1 / 2 : ℝ)) : EReal) := by
  unfold mhalf
  simp [Ideal.ofBits, Ideal.ieee, -EReal.coe_mul]
  rw [← EReal.coe_neg]
  congr 1
  norm_num

theorem e1_pos : 0 < e1 := by unfold e1; positivity

/-! ### The real counterparts -/

/-- A real row's clamped Euclidean norm. -/
def denR (x : K → ℝ) : ℝ := max (Real.sqrt (∑ k, x k * x k)) e1
/-- The normalised real row. -/
def unitR (x : K → ℝ) (k : K) : ℝ := x k * (1 / denR x)
/-- The cosine affinity of two real rows. -/
def affR (x : S → K → ℝ) (s t : S) : ℝ := ∑ k, unitR (x s) k * unitR (x t) k
/-- A real row's degree. -/
def degRR (x : S → K → ℝ) (s : S) : ℝ := ∑ t, affR x s t
/-- The scale of a row, common to both arrangements: `(√(deg + ε₂))⁻¹`. -/
def disRR (x : S → K → ℝ) (s : S) : ℝ := (Real.sqrt (degRR x s + e2))⁻¹
/-- Normalised rows against scaled rows, over the reals. -/
def mmatR (x : S → K → ℝ) (j k : K) : ℝ := ∑ t, unitR (x t) j * (disRR x t * x t k)
/-- That matrix against the weights, over the reals. -/
def mwR (x : S → K → ℝ) (w : O → K → ℝ) (j : K) (o : O) : ℝ := ∑ k, mmatR x j k * w o k
/-- The kernel's result over the reals. -/
def kerOutR (x : S → K → ℝ) (w : O → K → ℝ) (s : S) (o : O) : ℝ :=
  disRR x s * ∑ j, unitR (x s) j * mwR x w j o
/-- The reference's result over the reals. -/
def refOutR (x : S → K → ℝ) (w : O → K → ℝ) (s : S) (o : O) : ℝ :=
  ∑ k, (∑ t, ((disRR x s * affR x s t) * disRR x t) * x t k) * w o k

theorem denR_pos (x : K → ℝ) : 0 < denR x := lt_of_lt_of_le e1_pos (le_max_right _ _)

/-! ### Each quantity at casts is the cast of its real counterpart -/

theorem den_coe (v : K → EReal) (x : K → ℝ) (hv : ∀ k, v k = (x k : EReal)) :
    den v = (denR x : EReal) := by
  unfold den denR
  have hs : (∑ k, v k * v k) = ((∑ k, x k * x k : ℝ) : EReal) := by
    rw [← coe_sum_univ]
    refine Finset.sum_congr rfl fun k _ => ?_
    rw [hv k, EReal.coe_mul]
  have hnn : ¬ (∑ k, x k * x k) < 0 :=
    not_lt.mpr (Finset.sum_nonneg fun k _ => mul_self_nonneg (x k))
  rw [hs, Ideal.sqrt_coe, if_neg hnn, eps1_coe, coe_max_coe]

theorem unit_coe (v : K → EReal) (x : K → ℝ) (hv : ∀ k, v k = (x k : EReal)) (k : K) :
    unit v k = (unitR x k : EReal) := by
  unfold unit unitR
  rw [den_coe v x hv, Ideal.div_coe (ne_of_gt (denR_pos x)), hv k, EReal.coe_mul]

theorem aff_coe (X : S → K → EReal) (x : S → K → ℝ) (hX : ∀ s k, X s k = (x s k : EReal)) (s t : S) :
    aff X s t = (affR x s t : EReal) := by
  unfold aff affR
  rw [← coe_sum_univ]
  refine Finset.sum_congr rfl fun k _ => ?_
  rw [unit_coe (X s) (x s) (hX s), unit_coe (X t) (x t) (hX t), EReal.coe_mul]

theorem degR_coe (X : S → K → EReal) (x : S → K → ℝ) (hX : ∀ s k, X s k = (x s k : EReal)) (s : S) :
    degR X s = (degRR x s : EReal) := by
  unfold degR degRR
  rw [← coe_sum_univ]
  exact Finset.sum_congr rfl fun t _ => aff_coe X x hX s t

/-- The kernel's degree of a row of the group is the same real: `Σ_k u_sk (Σ_t u_tk) = Σ_t Σ_k u_sk u_tk`. -/
theorem degK_coe (X : S → K → EReal) (x : S → K → ℝ) (hX : ∀ s k, X s k = (x s k : EReal)) (s : S) :
    degK X (X s) = (degRR x s : EReal) := by
  unfold degK colsum
  have h : ∀ k, unit (X s) k * ∑ t, unit (X t) k
      = ((unitR (x s) k * ∑ t, unitR (x t) k : ℝ) : EReal) := by
    intro k
    rw [EReal.coe_mul, ← coe_sum_univ, unit_coe (X s) (x s) (hX s)]
    congr 1
    exact Finset.sum_congr rfl fun t _ => unit_coe (X t) (x t) (hX t) k
  rw [Finset.sum_congr rfl fun k _ => h k, coe_sum_univ]
  congr 1
  unfold degRR affR
  simp only [Finset.mul_sum]
  exact Finset.sum_comm

theorem deg_pos (X : S → K → EReal) (x : S → K → ℝ) (hX : ∀ s k, X s k = (x s k : EReal)) (s : S)
    (hpos : 0 < degR X s + eps2) : 0 < degRR x s + e2 := by
  rw [degR_coe X x hX s, eps2_coe, ← EReal.coe_add] at hpos
  exact EReal.coe_pos.mp hpos

/-- On a positive real the inverse square root is `(√r)⁻¹`. -/
theorem disK_coe (X : S → K → EReal) (x : S → K → ℝ) (hX : ∀ s k, X s k = (x s k : EReal)) (s : S)
    (hpos : 0 < degR X s + eps2) : disK X (X s) = (disRR x s : EReal) := by
  have h := deg_pos X x hX s hpos
  unfold disK disRR
  rw [degK_coe X x hX s, eps2_coe, ← EReal.coe_add, Ideal.rsqrt_coe, if_neg (not_lt.mpr h.le),
    if_neg (ne_of_gt h)]

/-- On a positive real the power `-1/2` is `(√r)⁻¹` too. -/
theorem disR_coe (X : S → K → EReal) (x : S → K → ℝ) (hX : ∀ s k, X s k = (x s k : EReal)) (s : S)
    (hpos : 0 < degR X s + eps2) : disR X s = (disRR x s : EReal) := by
  have h := deg_pos X x hX s hpos
  unfold disR disRR
  rw [degR_coe X x hX s, eps2_coe, ← EReal.coe_add, mhalf_coe, Ideal.pow_coe_coe]
  congr 1
  show (degRR x s + e2) ^ (-1 / 2 : ℝ) = (Real.sqrt (degRR x s + e2))⁻¹
  rw [Real.sqrt_eq_rpow, ← Real.rpow_neg h.le]
  congr 1
  norm_num

theorem mmat_coe (X : S → K → EReal) (x : S → K → ℝ) (hX : ∀ s k, X s k = (x s k : EReal))
    (hpos : ∀ s, 0 < degR X s + eps2) (j k : K) : mmat X j k = (mmatR x j k : EReal) := by
  unfold mmat mmatR
  rw [← coe_sum_univ]
  refine Finset.sum_congr rfl fun t _ => ?_
  rw [unit_coe (X t) (x t) (hX t), disK_coe X x hX t (hpos t), hX t k, EReal.coe_mul, EReal.coe_mul]

theorem mw_coe (X : S → K → EReal) (x : S → K → ℝ) (hX : ∀ s k, X s k = (x s k : EReal))
    (W : O → K → EReal) (w : O → K → ℝ) (hW : ∀ o k, W o k = (w o k : EReal))
    (hpos : ∀ s, 0 < degR X s + eps2) (j : K) (o : O) : mw X W j o = (mwR x w j o : EReal) := by
  unfold mw mwR
  rw [← coe_sum_univ]
  refine Finset.sum_congr rfl fun k _ => ?_
  rw [mmat_coe X x hX hpos j k, hW o k, EReal.coe_mul]

theorem kerOut_coe (X : S → K → EReal) (x : S → K → ℝ) (hX : ∀ s k, X s k = (x s k : EReal))
    (W : O → K → EReal) (w : O → K → ℝ) (hW : ∀ o k, W o k = (w o k : EReal))
    (hpos : ∀ s, 0 < degR X s + eps2) (s : S) (o : O) :
    kerOut X W (X s) o = (kerOutR x w s o : EReal) := by
  unfold kerOut kerOutR
  rw [disK_coe X x hX s (hpos s), EReal.coe_mul, ← coe_sum_univ]
  congr 1
  refine Finset.sum_congr rfl fun j _ => ?_
  rw [unit_coe (X s) (x s) (hX s), mw_coe X x hX W w hW hpos j o, EReal.coe_mul]

theorem refOut_coe (X : S → K → EReal) (x : S → K → ℝ) (hX : ∀ s k, X s k = (x s k : EReal))
    (W : O → K → EReal) (w : O → K → ℝ) (hW : ∀ o k, W o k = (w o k : EReal))
    (hpos : ∀ s, 0 < degR X s + eps2) (s : S) (o : O) :
    refOut X W s o = (refOutR x w s o : EReal) := by
  unfold refOut refOutR
  rw [← coe_sum_univ]
  refine Finset.sum_congr rfl fun k _ => ?_
  rw [EReal.coe_mul, ← coe_sum_univ, hW o k]
  congr 1
  refine Finset.sum_congr rfl fun t _ => ?_
  rw [disR_coe X x hX s (hpos s), disR_coe X x hX t (hpos t), aff_coe X x hX s t, hX t k,
    EReal.coe_mul, EReal.coe_mul, EReal.coe_mul]

/-! ### The identity of real sums -/

/-- Both arrangements are `Σ_j Σ_k Σ_t d_s u_sj u_tj d_t x_tk w_ok`: the kernel sums over `t` innermost and
    `j` outermost, the reference over `j` innermost and `k` outermost. -/
theorem real_law (u x : S → K → ℝ) (w : O → K → ℝ) (d : S → ℝ) (s : S) (o : O) :
    d s * ∑ j, u s j * (∑ k, (∑ t, u t j * (d t * x t k)) * w o k)
      = ∑ k, (∑ t, ((d s * ∑ j, u s j * u t j) * d t) * x t k) * w o k := by
  have hL : d s * ∑ j, u s j * (∑ k, (∑ t, u t j * (d t * x t k)) * w o k)
      = ∑ j, ∑ k, ∑ t, d s * u s j * u t j * d t * x t k * w o k := by
    simp only [Finset.mul_sum, Finset.sum_mul]
    refine Finset.sum_congr rfl fun j _ => Finset.sum_congr rfl fun k _ =>
      Finset.sum_congr rfl fun t _ => ?_
    ring
  have hR : ∑ k, (∑ t, ((d s * ∑ j, u s j * u t j) * d t) * x t k) * w o k
      = ∑ k, ∑ j, ∑ t, d s * u s j * u t j * d t * x t k * w o k := by
    simp only [Finset.mul_sum, Finset.sum_mul]
    refine Finset.sum_congr rfl fun k _ => ?_
    refine Eq.trans (Finset.sum_congr rfl fun t _ => Finset.sum_congr rfl fun j _ => ?_) Finset.sum_comm
    ring
  rw [hL, hR]
  exact Finset.sum_comm

theorem kerOutR_eq_refOutR (x : S → K → ℝ) (w : O → K → ℝ) (s : S) (o : O) :
    kerOutR x w s o = refOutR x w s o := by
  unfold kerOutR refOutR mwR mmatR affR
  exact real_law (fun s k => unitR (x s) k) x w (disRR x) s o

end Law

open Law in
theorem kerOut_eq_refOut (X : S → K → EReal) (W : O → K → EReal)
    (hX : ∀ s k, X s k ≠ ⊥ ∧ X s k ≠ ⊤) (hW : ∀ o k, W o k ≠ ⊥ ∧ W o k ≠ ⊤)
    (hpos : ∀ s, 0 < degR X s + eps2) (s : S) (o : O) :
    kerOut X W (X s) o = refOut X W s o := by
  have hx : ∀ s k, X s k = (((X s k).toReal : ℝ) : EReal) := fun s k =>
    (EReal.coe_toReal (hX s k).2 (hX s k).1).symm
  have hw : ∀ o k, W o k = (((W o k).toReal : ℝ) : EReal) := fun o k =>
    (EReal.coe_toReal (hW o k).2 (hW o k).1).symm
  rw [kerOut_coe X (fun s k => (X s k).toReal) hx W (fun o k => (W o k).toReal) hw hpos s o,
    refOut_coe X (fun s k => (X s k).toReal) hx W (fun o k => (W o k).toReal) hw hpos s o,
    kerOutR_eq_refOutR]

end Cert.Gcn

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.PayRows.lean ====
/-
  The kernel body's row-wise values read at an index: the loaded block's rows, their normalised form, the
  column sum, and the kept rows' normalised form and shifted degree.
-/
import proofs.«139792_j69733089017908_2_alg».proof.Proof.Gen.KernelIdeal.Skeleton
import proofs.«139792_j69733089017908_2_alg».proof.Proof.GcnSpec
import proofs.«139792_j69733089017908_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.GcnPay

open Cert.KernelIdeal Cert.KernelIdeal.Gen Idealize.ShloMosaic Idealize.ShloMosaic.ValueIdx

/-! ### A sum along one axis of a matrix, read at an index -/

/-- The row index `r` with the column `k` put back is `(r, k)`. -/
theorem lift_row {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- The column index `c` with the row `k` put back is `(k, c)`. -/
theorem lift_col {m n : Nat} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

/-- A matrix summed along its columns reads, at row `r`, the sum of that row. -/
theorem rowSum_apply {m n : Nat} (x : FVec Ideal ⟨2, ![m, n]⟩ .f32)
    (h : (⟨2, ![m, n]⟩ : Shape).Reduces [1] (⟨1, ![m]⟩ : Shape)) (hφ : FKind.Formats .f32)
    (hacc : (0x00000000#32 : BitVec 32) = FKind.add.neutral .f32 hφ) (r : Fin m) :
    multiReduction .add [1] ⟨1, ![m]⟩ x 0x00000000#32 h hφ hacc (ix1 r) = ∑ k : Fin n, x (ix2 r k) := by
  refine (Ideal.multiReduction_add_single x 0x00000000#32 h hφ hacc (ix1 r)).trans ?_
  exact Finset.sum_congr rfl fun k _ => congrArg x (lift_row h r k)

/-- A matrix summed along its rows reads, at column `c`, the sum of that column. -/
theorem colSum_apply {m n : Nat} (x : FVec Ideal ⟨2, ![m, n]⟩ .f32)
    (h : (⟨2, ![m, n]⟩ : Shape).Reduces [0] (⟨1, ![n]⟩ : Shape)) (hφ : FKind.Formats .f32)
    (hacc : (0x00000000#32 : BitVec 32) = FKind.add.neutral .f32 hφ) (c : Fin n) :
    multiReduction .add [0] ⟨1, ![n]⟩ x 0x00000000#32 h hφ hacc (ix1 c) = ∑ s : Fin m, x (ix2 s c) := by
  refine (Ideal.multiReduction_add_single x 0x00000000#32 h hφ hacc (ix1 c)).trans ?_
  exact Finset.sum_congr rfl fun k _ => congrArg x (lift_col h c k)

/-! ### A matrix's rows normalised -/

/-- Each row divided by its clamped norm (the sum of squares kept as a column, its square root, the clamp, the
    column broadcast along the row) reads, at `(r, k)`, the normalised row `r` at `k`. -/
theorem normalise_apply {m n : Nat} (x : FVec Ideal ⟨2, ![m, n]⟩ .f32)
    (hr : (⟨2, ![m, n]⟩ : Shape).Reduces [1] (⟨1, ![m]⟩ : Shape))
    (hc : (⟨1, ![m]⟩ : Shape).ShapeCasts ⟨2, ![m, 1]⟩)
    (hb : (⟨2, ![m, 1]⟩ : Shape).Broadcasts ⟨2, ![m, n]⟩)
    (hφ : FKind.Formats .f32) (hacc : (0x00000000#32 : BitVec 32) = FKind.add.neutral .f32 hφ)
    (r : Fin m) (k : Fin n) :
    divf x (broadcastTo ⟨2, ![m, n]⟩
      (maximumf (sqrt (shapeCast ⟨2, ![m, 1]⟩ (multiReduction .add [1] ⟨1, ![m]⟩ (mulf x x) 0x00000000#32 hr hφ hacc) hc))
        (broadcast ⟨2, ![m, 1]⟩ (Scalar.ofBits (F := Ideal) .f32 0x2B8CBCCC#32))) hb) (ix2 r k)
      = Cert.Gcn.unit (fun k => x (ix2 r k)) k := by
  rw [divf_apply, Cert.Bridge.Layout.broadcastTo_a1_an_apply, maximumf_apply]
  show Ideal.div (x (ix2 r k)) (max (Ideal.sqrt (shapeCast ⟨2, ![m, 1]⟩ _ hc (ix2 r (0 : Fin 1)))) (Ideal.ofBits .f32 0x2B8CBCCC#32)) = _
  rw [Cert.Bridge.Layout.shapeCast_a_a1_apply, rowSum_apply]
  rfl

/-! ### The kernel body's values -/

/-- The loaded block with its leading unit axis dropped reads, at `(s, k)`, the block at `(0, s, k)`. -/
theorem pay2_apply (v0 : Vec Ideal S1x4096x64 .f32) (s : Fin 4096) (k : Fin 64) :
    k0_pay2 (F := Ideal) v0 (ix2 s k) = v0 (ix3 (0 : Fin 1) s k) := by
  unfold k0_pay2
  exact shapeCast_1ab_ab_apply v0 shapeCasts_S1x4096x64_S4096x64 s k

/-- The block's rows normalised: at `(s, k)`, row `s` divided by its clamped norm, at `k`. -/
theorem pay3_apply (v0 : Vec Ideal S1x4096x64 .f32) (s : Fin 4096) (k : Fin 64) :
    k0_pay3 (F := Ideal) v0 (ix2 s k) = Cert.Gcn.unit (fun k => v0 (ix3 (0 : Fin 1) s k)) k := by
  unfold k0_pay3
  refine (normalise_apply (k0_pay2 v0) reduces_S4096x64_S4096 shapeCasts_S4096_S4096x1 broadcasts_S4096x1_S4096x64 (.inl rfl) rfl s k).trans ?_
  exact congrArg (fun f => Cert.Gcn.unit f k) (funext fun k => pay2_apply v0 s k)

/-- The normalised rows summed over the rows and kept as one row: at `(0, k)`, the column sum at `k`. -/
theorem pay4_apply (v0 : Vec Ideal S1x4096x64 .f32) (k : Fin 64) :
    k0_pay4 (F := Ideal) v0 (ix2 (0 : Fin 1) k) = Cert.Gcn.colsum (fun (s : Fin 4096) (k : Fin 64) => v0 (ix3 (0 : Fin 1) s k)) k := by
  unfold k0_pay4
  refine (shapeCast_a_1a_apply _ shapeCasts_S64_S1x64 (0 : Fin 1) k).trans ?_
  refine (colSum_apply (k0_pay3 v0) reduces_S4096x64_S64 (.inl rfl) rfl k).trans ?_
  show (∑ s : Fin 4096, k0_pay3 v0 (ix2 s k)) = ∑ s : Fin 4096, Cert.Gcn.unit (fun k => v0 (ix3 (0 : Fin 1) s k)) k
  exact Finset.sum_congr rfl fun s _ => pay3_apply v0 s k

/-- The kept rows normalised the same way: at `(n, k)`, kept row `n` divided by its clamped norm, at `k`. -/
theorem pay6_apply (v24 : Vec Ideal S1x64x64 .f32) (n : Fin 64) (k : Fin 64) :
    k0_pay6 (F := Ideal) v24 (ix2 n k) = Cert.Gcn.unit (fun k => v24 (ix3 (0 : Fin 1) n k)) k := by
  unfold k0_pay6
  refine (normalise_apply (shapeCast S64x64 v24 shapeCasts_S1x64x64_S64x64) reduces_S64x64_S64 shapeCasts_S64_S64x1
    broadcasts_S64x1_S64x64 (.inl rfl) rfl n k).trans ?_
  exact congrArg (fun f => Cert.Gcn.unit f k)
    (funext fun k => shapeCast_1ab_ab_apply v24 shapeCasts_S1x64x64_S64x64 n k)

/-- The kept rows' shifted degree: at `(n, 0)`, the normalised kept row `n` against the column sum, summed over the
    features, plus `ε₂`. -/
theorem pay7_apply (v0 : Vec Ideal S1x4096x64 .f32) (v24 : Vec Ideal S1x64x64 .f32) (n : Fin 64) :
    k0_pay7 (F := Ideal) v0 v24 (ix2 n (0 : Fin 1))
      = Cert.Gcn.degK (fun (s : Fin 4096) (k : Fin 64) => v0 (ix3 (0 : Fin 1) s k)) (fun k => v24 (ix3 (0 : Fin 1) n k)) + Cert.Gcn.eps2 := by
  unfold k0_pay7
  show shapeCast S64x1 _ shapeCasts_S64_S64x1 (ix2 n (0 : Fin 1)) + Ideal.ofBits .f32 0x322BCC77#32 = _
  refine congrArg (· + Cert.Gcn.eps2) ?_
  refine (Cert.Bridge.Layout.shapeCast_a_a1_apply _ shapeCasts_S64_S64x1 n (0 : Fin 1)).trans ?_
  refine (rowSum_apply _ reduces_S64x64_S64 (.inl rfl) rfl n).trans ?_
  show _ = ∑ k : Fin 64, Cert.Gcn.unit (fun k => v24 (ix3 (0 : Fin 1) n k)) k
      * Cert.Gcn.colsum (fun (s : Fin 4096) (k : Fin 64) => v0 (ix3 (0 : Fin 1) s k)) k
  refine Finset.sum_congr rfl fun k _ => ?_
  rw [mulf_apply, pay6_apply, broadcastTo_1b_ab_apply, pay4_apply]

end Cert.KernelIdeal.GcnPay

end
-- ==== Proof.PayProducts.lean ====
/-
  The kernel body's three matrix products read at an index, and with them the stored block: entry (n, o) is
  the kernel's result for the kept row n of the loaded group.

  Each product accumulates into the zero splat, so at the extended reals its entry is the plain sum of the
  operands' products over the one contracted axis; which element of each operand a term reads depends on the
  axes contracted:
    * rows against rows:       entry (j, k) = Σ_s L(s, j) · R(s, k),
    * columns against columns: entry (j, o) = Σ_k L(j, k) · R(o, k),
    * columns against rows:    entry (n, o) = Σ_j L(n, j) · R(j, o).
  Between them the body scales each row s of the loaded block by rsqrt (deg s + ε₂), where deg s is the lane
  sum of the normalised row against the column sum, kept as a column and broadcast back along the features.
-/
import proofs.«139792_j69733089017908_2_alg».proof.Proof.PayRows
import proofs.«139792_j69733089017908_2_alg».proof.Proof.LibLayout

noncomputable section

open scoped BigOperators

namespace Cert.KernelIdeal.GcnPay

open Cert.KernelIdeal Cert.KernelIdeal.Gen Idealize.ShloMosaic Idealize.ShloMosaic.ValueIdx

/-! ### The product contracting the rows of both operands -/

theorem lhs_rows_0 (i : S64x64.Idx) (q : dot_S4096x64_S4096x64_S64x64_0_0_1_1_n_n.contr.Idx) :
    (dot_S4096x64_S4096x64_S64x64_0_0_1_1_n_n.lhsIdx i q 0).val = (q ⟨0, by decide⟩).val :=
  dot_S4096x64_S4096x64_S64x64_0_0_1_1_n_n.lhsIdx_val_of_single rfl i q
theorem lhs_rows_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide), dif_pos (show (1 : Fin S4096x64.rank) ∈ dot_S4096x64_S4096x64_S64x64_0_0_1_1_n_n.lhsNonContracting by decide)]
  rfl
theorem rhs_rows_0 (i : S64x64.Idx) (q : dot_S4096x64_S4096x64_S64x64_0_0_1_1_n_n.contr.Idx) :
    (dot_S4096x64_S4096x64_S64x64_0_0_1_1_n_n.rhsIdx i q 0).val = (q ⟨0, by decide⟩).val :=
  dot_S4096x64_S4096x64_S64x64_0_0_1_1_n_n.rhsIdx_val_of_single rfl i q
theorem rhs_rows_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide), dif_pos (show (1 : Fin S4096x64.rank) ∈ dot_S4096x64_S4096x64_S64x64_0_0_1_1_n_n.rhsNonContracting by decide)]
  rfl

/-- Entry (j, k) is the sum over the rows s of L(s, j) · R(s, k). -/
theorem mmRows_apply (L R : FVec Ideal S4096x64 .f32) (j k : Fin 64) :
    matmul dot_S4096x64_S4096x64_S64x64_0_0_1_1_n_n (some .fp32) L R (constant S64x64 .f32 0x00000000#32) (ix2 j k)
      = ∑ s : Fin 4096, L (ix2 s j) * R (ix2 s k) := by
  simp only [matmul]
  rw [Ideal.matmul_constant_zero_apply, ← Equiv.sum_comp (contrEquiv1 dot_S4096x64_S4096x64_S64x64_0_0_1_1_n_n 4096 rfl rfl).symm]
  refine Finset.sum_congr rfl fun s _ => ?_
  have hs := contrEquiv1_symm_val dot_S4096x64_S4096x64_S64x64_0_0_1_1_n_n 4096 rfl rfl s
  have el : dot_S4096x64_S4096x64_S64x64_0_0_1_1_n_n.lhsIdx (ix2 j k) ((contrEquiv1 dot_S4096x64_S4096x64_S64x64_0_0_1_1_n_n 4096 rfl rfl).symm s) = ix2 s j := funext fun a => Fin.ext (by
    match a with
    | ⟨0, _⟩ => exact (lhs_rows_0 _ _).trans hs
    | ⟨1, _⟩ => exact lhs_rows_1 _ _)
  have er : dot_S4096x64_S4096x64_S64x64_0_0_1_1_n_n.rhsIdx (ix2 j k) ((contrEquiv1 dot_S4096x64_S4096x64_S64x64_0_0_1_1_n_n 4096 rfl rfl).symm s) = ix2 s k := funext fun a => Fin.ext (by
    match a with
    | ⟨0, _⟩ => exact (rhs_rows_0 _ _).trans hs
    | ⟨1, _⟩ => exact rhs_rows_1 _ _)
  rw [el, er]

/-! ### The product contracting the columns of both operands -/

theorem lhs_cols_0 (i : S64x128.Idx) (q : dot_S64x64_S128x64_S64x128_1_1_0_0_n_n.contr.Idx) :
    (dot_S64x64_S128x64_S64x128_1_1_0_0_n_n.lhsIdx i q 0).val = (i 0).val := by
  unfold DotDims.lhsIdx
  rw [dif_neg (show ¬(0 : Fin S64x64.rank) ∈ dot_S64x64_S128x64_S64x128_1_1_0_0_n_n.lhsBatch by decide), dif_pos (show (0 : Fin S64x64.rank) ∈ dot_S64x64_S128x64_S64x128_1_1_0_0_n_n.lhsNonContracting by decide)]
  rfl
theorem lhs_cols_1 (i : S64x128.Idx) (q : dot_S64x64_S128x64_S64x128_1_1_0_0_n_n.contr.Idx) :
    (dot_S64x64_S128x64_S64x128_1_1_0_0_n_n.lhsIdx i q 1).val = (q ⟨0, by decide⟩).val :=
  dot_S64x64_S128x64_S64x128_1_1_0_0_n_n.lhsIdx_val_of_single rfl i q
theorem rhs_cols_0 (i : S64x128.Idx) (q : dot_S64x64_S128x64_S64x128_1_1_0_0_n_n.contr.Idx) :
    (dot_S64x64_S128x64_S64x128_1_1_0_0_n_n.rhsIdx i q 0).val = (i 1).val := by
  unfold DotDims.rhsIdx
  rw [dif_neg (show ¬(0 : Fin S128x64.rank) ∈ dot_S64x64_S128x64_S64x128_1_1_0_0_n_n.rhsBatch by decide), dif_pos (show (0 : Fin S128x64.rank) ∈ dot_S64x64_S128x64_S64x128_1_1_0_0_n_n.rhsNonContracting by decide)]
  rfl
theorem rhs_cols_1 (i : S64x128.Idx) (q : dot_S64x64_S128x64_S64x128_1_1_0_0_n_n.contr.Idx) :
    (dot_S64x64_S128x64_S64x128_1_1_0_0_n_n.rhsIdx i q 1).val = (q ⟨0, by decide⟩).val :=
  dot_S64x64_S128x64_S64x128_1_1_0_0_n_n.rhsIdx_val_of_single rfl i q

/-- Entry (j, o) is the sum over the columns k of L(j, k) · R(o, k). -/
theorem mmCols_apply (L : FVec Ideal S64x64 .f32) (R : FVec Ideal S128x64 .f32) (j : Fin 64) (o : Fin 128) :
    matmul dot_S64x64_S128x64_S64x128_1_1_0_0_n_n none L R (constant S64x128 .f32 0x00000000#32) (ix2 j o)
      = ∑ k : Fin 64, L (ix2 j k) * R (ix2 o k) := by
  simp only [matmul]
  rw [Ideal.matmul_constant_zero_apply, ← Equiv.sum_comp (contrEquiv1 dot_S64x64_S128x64_S64x128_1_1_0_0_n_n 64 rfl rfl).symm]
  refine Finset.sum_congr rfl fun k _ => ?_
  have hk := contrEquiv1_symm_val dot_S64x64_S128x64_S64x128_1_1_0_0_n_n 64 rfl rfl k
  have el : dot_S64x64_S128x64_S64x128_1_1_0_0_n_n.lhsIdx (ix2 j o) ((contrEquiv1 dot_S64x64_S128x64_S64x128_1_1_0_0_n_n 64 rfl rfl).symm k) = ix2 j k := funext fun a => Fin.ext (by
    match a with
    | ⟨0, _⟩ => exact lhs_cols_0 _ _
    | ⟨1, _⟩ => exact (lhs_cols_1 _ _).trans hk)
  have er : dot_S64x64_S128x64_S64x128_1_1_0_0_n_n.rhsIdx (ix2 j o) ((contrEquiv1 dot_S64x64_S128x64_S64x128_1_1_0_0_n_n 64 rfl rfl).symm k) = ix2 o k := funext fun a => Fin.ext (by
    match a with
    | ⟨0, _⟩ => exact rhs_cols_0 _ _
    | ⟨1, _⟩ => exact (rhs_cols_1 _ _).trans hk)
  rw [el, er]

/-! ### The plain product: columns of the left operand against rows of the right -/

theorem lhs_plain_0 (i : S64x128.Idx) (q : dot_S64x64_S64x128_S64x128_1_0_0_1_n_n.contr.Idx) :
    (dot_S64x64_S64x128_S64x128_1_0_0_1_n_n.lhsIdx i q 0).val = (i 0).val := by
  unfold DotDims.lhsIdx
  rw [dif_neg (show ¬(0 : Fin S64x64.rank) ∈ dot_S64x64_S64x128_S64x128_1_0_0_1_n_n.lhsBatch by decide), dif_pos (show (0 : Fin S64x64.rank) ∈ dot_S64x64_S64x128_S64x128_1_0_0_1_n_n.lhsNonContracting by decide)]
  rfl
theorem lhs_plain_1 (i : S64x128.Idx) (q : dot_S64x64_S64x128_S64x128_1_0_0_1_n_n.contr.Idx) :
    (dot_S64x64_S64x128_S64x128_1_0_0_1_n_n.lhsIdx i q 1).val = (q ⟨0, by decide⟩).val :=
  dot_S64x64_S64x128_S64x128_1_0_0_1_n_n.lhsIdx_val_of_single rfl i q
theorem rhs_plain_0 (i : S64x128.Idx) (q : dot_S64x64_S64x128_S64x128_1_0_0_1_n_n.contr.Idx) :
    (dot_S64x64_S64x128_S64x128_1_0_0_1_n_n.rhsIdx i q 0).val = (q ⟨0, by decide⟩).val :=
  dot_S64x64_S64x128_S64x128_1_0_0_1_n_n.rhsIdx_val_of_single rfl i q
theorem rhs_plain_1 (i : S64x128.Idx) (q : dot_S64x64_S64x128_S64x128_1_0_0_1_n_n.contr.Idx) :
    (dot_S64x64_S64x128_S64x128_1_0_0_1_n_n.rhsIdx i q 1).val = (i 1).val := by
  unfold DotDims.rhsIdx
  rw [dif_neg (show ¬(1 : Fin S64x128.rank) ∈ dot_S64x64_S64x128_S64x128_1_0_0_1_n_n.rhsBatch by decide), dif_pos (show (1 : Fin S64x128.rank) ∈ dot_S64x64_S64x128_S64x128_1_0_0_1_n_n.rhsNonContracting by decide)]
  rfl

/-- Entry (n, o) is the sum over j of L(n, j) · R(j, o). -/
theorem mmPlain_apply (L : FVec Ideal S64x64 .f32) (R : FVec Ideal S64x128 .f32) (n : Fin 64) (o : Fin 128) :
    matmul dot_S64x64_S64x128_S64x128_1_0_0_1_n_n none L R (constant S64x128 .f32 0x00000000#32) (ix2 n o)
      = ∑ j : Fin 64, L (ix2 n j) * R (ix2 j o) := by
  simp only [matmul]
  rw [Ideal.matmul_constant_zero_apply, ← Equiv.sum_comp (contrEquiv1 dot_S64x64_S64x128_S64x128_1_0_0_1_n_n 64 rfl rfl).symm]
  refine Finset.sum_congr rfl fun j _ => ?_
  have hj := contrEquiv1_symm_val dot_S64x64_S64x128_S64x128_1_0_0_1_n_n 64 rfl rfl j
  have el : dot_S64x64_S64x128_S64x128_1_0_0_1_n_n.lhsIdx (ix2 n o) ((contrEquiv1 dot_S64x64_S64x128_S64x128_1_0_0_1_n_n 64 rfl rfl).symm j) = ix2 n j := funext fun a => Fin.ext (by
    match a with
    | ⟨0, _⟩ => exact lhs_plain_0 _ _
    | ⟨1, _⟩ => exact (lhs_plain_1 _ _).trans hj)
  have er : dot_S64x64_S64x128_S64x128_1_0_0_1_n_n.rhsIdx (ix2 n o) ((contrEquiv1 dot_S64x64_S64x128_S64x128_1_0_0_1_n_n 64 rfl rfl).symm j) = ix2 j o := funext fun a => Fin.ext (by
    match a with
    | ⟨0, _⟩ => exact (rhs_plain_0 _ _).trans hj
    | ⟨1, _⟩ => exact rhs_plain_1 _ _)
  rw [el, er]

/-! ### The lane sum -/

/-- The sum over the features of a block of rows, at row s. -/
theorem laneSum_apply (v : FVec Ideal S4096x64 .f32) (s : Fin 4096) :
    multiReduction .add [1] S4096 v 0x00000000#32 reduces_S4096x64_S4096 (.inl rfl) rfl (ix1 s)
      = ∑ k : Fin 64, v (ix2 s k) := by
  refine (Ideal.multiReduction_add_single v _ reduces_S4096x64_S4096 _ _ (ix1 s)).trans ?_
  refine Finset.sum_congr rfl fun k _ => congrArg v (funext fun a => Fin.ext ?_)
  match a with
  | ⟨0, _⟩ => rfl
  | ⟨1, _⟩ => rfl

/-! ### The payloads -/

/-- The weighted matrix at (j, o): the second product's entry is Σ_k (first product)(j, k) · W(o, k); the first
    product's entry (j, k) is Σ_s unit(X s)(j) · (scaled row s)(k); and the scaled row is
    rsqrt (Σ_c unit(X s)(c) · colsum(c) + ε₂) · X s k. -/
theorem pay5_apply (v0 : Vec Ideal S1x4096x64 .f32) (v22 : Vec Ideal S128x64 .f32) (j : Fin 64) (o : Fin 128) :
    k0_pay5 (F := Ideal) v0 v22 (ix2 j o)
      = Cert.Gcn.mw (fun (s : Fin 4096) (k : Fin 64) => v0 (ix3 (0 : Fin 1) s k)) (fun (o : Fin 128) (k : Fin 64) => v22 (ix2 o k)) j o := by
  unfold k0_pay5
  -- the second product: columns of the first product against columns of the weights
  refine (mmCols_apply _ _ j o).trans ?_
  unfold Cert.Gcn.mw
  refine Finset.sum_congr rfl fun k _ => ?_
  congr 1
  -- the first product: normalised rows against scaled rows, contracted over the rows
  refine (mmRows_apply _ _ j k).trans ?_
  unfold Cert.Gcn.mmat
  refine Finset.sum_congr rfl fun s _ => ?_
  rw [pay3_apply]
  congr 1
  -- the scaled row: the scale, broadcast along the features, times the loaded row
  refine (mulf_apply _ _ _).trans ?_
  rw [pay2_apply]
  congr 1
  refine (Cert.Bridge.Layout.broadcastTo_a1_an_apply _ _ s k).trans ?_
  unfold Cert.Gcn.disK Cert.Gcn.eps2
  refine congrArg Ideal.rsqrt ?_
  refine (addf_apply _ _ _).trans ?_
  congr 1
  -- the degree: the lane sum of the normalised row against the column sum
  refine (Cert.Bridge.Layout.shapeCast_a_a1_apply _ _ s (0 : Fin 1)).trans ?_
  refine (laneSum_apply _ s).trans ?_
  unfold Cert.Gcn.degK
  refine Finset.sum_congr rfl fun c _ => ?_
  refine (mulf_apply _ _ _).trans ?_
  rw [pay3_apply, broadcastTo_1b_ab_apply, pay4_apply]

/-- The stored value at (0, n, o): the plain product's entry Σ_j A(n, j) · M(j, o), scaled by the inverse square
    root of the column entry (n, 0) broadcast along the output channels. -/
theorem pay1_apply (v23 : FVec Ideal S64x128 .f32) (v33 : FVec Ideal S64x64 .f32) (v39 : FVec Ideal S64x1 .f32) (n : Fin 64) (o : Fin 128) :
    k0_pay1 (F := Ideal) v23 v33 v39 (ix3 (0 : Fin 1) n o)
      = Ideal.rsqrt (v39 (ix2 n (0 : Fin 1))) * ∑ j : Fin 64, v33 (ix2 n j) * v23 (ix2 j o) := by
  unfold k0_pay1
  refine (shapeCast_ab_1ab_apply _ _ (0 : Fin 1) n o).trans ?_
  refine (mulf_apply _ _ _).trans ?_
  rw [Cert.Bridge.Layout.broadcastTo_a1_an_apply, mmPlain_apply]
  rfl

/-- The stored block at (n, o): the kernel's result for the kept row n against the loaded group and weights. -/
theorem pay_apply (v0 : Vec Ideal S1x4096x64 .f32) (v22 : Vec Ideal S128x64 .f32) (v24 : Vec Ideal S1x64x64 .f32) (n : Fin 64) (o : Fin 128) :
    k0_pay1 (F := Ideal) (k0_pay5 v0 v22) (k0_pay6 v24) (k0_pay7 v0 v24) (ix3 (0 : Fin 1) n o)
      = Cert.Gcn.kerOut (fun (s : Fin 4096) (k : Fin 64) => v0 (ix3 (0 : Fin 1) s k)) (fun (o : Fin 128) (k : Fin 64) => v22 (ix2 o k))
          (fun k => v24 (ix3 (0 : Fin 1) n k)) o := by
  rw [pay1_apply, pay7_apply]
  unfold Cert.Gcn.kerOut Cert.Gcn.disK
  refine congrArg _ (Finset.sum_congr rfl fun j _ => ?_)
  rw [pay6_apply, pay5_apply]

end Cert.KernelIdeal.GcnPay

end
-- ==== Proof.KernelArray.lean ====
/-
  The kernel's result array after its run, as one function of the argument arrays: grid point g writes block g,
  whose entry (n, o) is the kernel's result for the centre row of node n in group g.
-/
import proofs.«139792_j69733089017908_2_alg».proof.Proof.Gen.KernelIdeal.Value
import proofs.«139792_j69733089017908_2_alg».proof.Proof.PayProducts

noncomputable section

open scoped BigOperators

namespace Cert.KernelIdeal.GcnValue

open Cert.KernelIdeal Cert.KernelIdeal.Gen Idealize.ShloMosaic Idealize.ShloMosaic.TcCoe Idealize.SL.Sem Idealize.ShloMosaic.ValueIdx

section Blocks

variable (m : (ℓ : Loc nD τ sig) → Buf (Elt Ideal) ℓ) (ρ : Dev nD → PrngReg)

/-! ### Zero offsets, however they are spelt -/

theorem zeros3 : (![0, 0, 0] : Fin 3 → Nat) = fun _ => 0 := funext fun a => by fin_cases a <;> rfl
theorem zeros2 : (![0, 0] : Fin 2 → Nat) = fun _ => 0 := funext fun a => by fin_cases a <;> rfl

/-! ### The two arrays the host prepares before the region

  The rows array [4, 4096, 64] is the input [4, 64, 8, 8, 64] reshaped; the centre array [4, 64, 64] is the
  input's slice at (·, ·, 4, 4, ·) with its two unit axes dropped. -/

/-- The rows array at region entry: the input reshaped. -/
theorem rows_array (c : Dev nD) : (V m c main_v0 : S4x4096x64.Idx → EReal)
    = shapeCast S4x4096x64 (m ((c : Thread nD τ).loc main_arg0) : S4x64x8x8x64.Idx → EReal) shapeCasts_S4x64x8x8x64_S4x4096x64 := by
  dsimp only [Gen.V, Gen.hostOps0]; after_results; rfl

/-- The centre array at region entry: the input sliced at (4, 4) on its two short axes, then reshaped. -/
theorem centre_array (c : Dev nD) : (V m c main_v2 : S4x64x64.Idx → EReal)
    = shapeCast S4x64x64 (extractStridedSlice S4x64x1x1x64 ![0, 0, 4, 4, 0] (m ((c : Thread nD τ).loc main_arg0) : S4x64x8x8x64.Idx → EReal) slices_S4x64x8x8x64_S4x64x1x1x64_0_0_4_4_0) shapeCasts_S4x64x1x1x64_S4x64x64 := by
  dsimp only [Gen.V, Gen.hostOps0]; after_results; rfl

/-- The reshaped input at (g, s, k) is row s of group g at feature k: s = 64 n + 8 a + b sits at row-major
    position ((g · 64 + n) · 8 + a) · 8 + b among the rows, the same position on both sides. -/
theorem reshaped_at (A0 : S4x64x8x8x64.Idx → EReal) (g : Fin 4) (s : Fin 4096) (k : Fin 64) :
    shapeCast S4x4096x64 A0 shapeCasts_S4x64x8x8x64_S4x4096x64 (ix3 g s k) = Cert.Gcn.rowsOf A0 g s k := by
  unfold Cert.Gcn.rowsOf
  refine shapeCast_apply A0 shapeCasts_S4x64x8x8x64_S4x4096x64 _ _ ?_
  rewrite [Shape.rowMajor_val_five, Shape.rowMajor_val_three]
  have hg := g.isLt; have hs := s.isLt; have hk := k.isLt
  show (((g.val * 64 + s.val / 64) * 8 + s.val / 8 % 8) * 8 + s.val % 8) * 64 + k.val = (g.val * 4096 + s.val) * 64 + k.val
  omega

/-- The sliced and reshaped input at (g, n, k) is the input at (g, n, 4, 4, k). -/
theorem sliced_at (A0 : S4x64x8x8x64.Idx → EReal) (g : Fin 4) (n : Fin 64) (k : Fin 64) :
    shapeCast S4x64x64 (extractStridedSlice S4x64x1x1x64 ![0, 0, 4, 4, 0] A0 slices_S4x64x8x8x64_S4x64x1x1x64_0_0_4_4_0) shapeCasts_S4x64x1x1x64_S4x64x64 (ix3 g n k)
      = A0 (ix5 g n (4 : Fin 8) (4 : Fin 8) k) := by
  refine (shapeCast_apply _ shapeCasts_S4x64x1x1x64_S4x64x64 (ix3 g n k) (ix5 g n (0 : Fin 1) (0 : Fin 1) k) ?_).trans ?_
  · rewrite [Shape.rowMajor_val_five, Shape.rowMajor_val_three]
    show (((g.val * 64 + n.val) * 1 + 0) * 1 + 0) * 64 + k.val = (g.val * 64 + n.val) * 64 + k.val
    omega
  · refine extractStridedSlice_apply ![0, 0, 4, 4, 0] A0 slices_S4x64x8x8x64_S4x64x1x1x64_0_0_4_4_0 _ _ (fun a => ?_)
    match a with
    | ⟨0, _⟩ => show g.val = 0 + g.val; omega
    | ⟨1, _⟩ => show n.val = 0 + n.val; omega
    | ⟨2, _⟩ => show 4 = 4 + 0; rfl
    | ⟨3, _⟩ => show 4 = 4 + 0; rfl
    | ⟨4, _⟩ => show k.val = 0 + k.val; omega

/-! ### The blocks at a grid point

  Grid point t takes block (t, 0, 0) of the rows array, of the centre array and of the result array, and the whole
  weights array: decided once over the four points. -/

theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The group a grid point works on. -/
def groupOf (t : Fin cfg0.N) : Fin 4 := ⟨t.val, Nat.lt_of_lt_of_eq t.isLt N_0⟩

/-- The rows block at point t holds the rows of group t. A block's coordinate in its array is the block index
    times the block size plus the coordinate inside the block. -/
theorem rows_block (c : Dev nD) (t : Fin cfg0.N) (s : Fin 4096) (k : Fin 64) :
    (iblk m c 0 t : Vec Ideal S1x4096x64 .f32) (ix3 (0 : Fin 1) s k)
      = Cert.Gcn.rowsOf (m ((c : Thread nD τ).loc main_arg0)) (groupOf t) s k := by
  obtain ⟨e0, e1, e2, -⟩ := block_indices t
  have he : ((cfg0.win 0).blk t).view.emb (ix3 (0 : Fin 1) s k) = ix3 (groupOf t) s k := by
    funext a; apply Fin.ext
    match a with
    | ⟨0, _⟩ => show win0_0.index t (0 : Fin 3) * 1 + 1 * 0 = t.val; omega
    | ⟨1, _⟩ => show win0_0.index t (1 : Fin 3) * 4096 + 1 * s.val = s.val; omega
    | ⟨2, _⟩ => show win0_0.index t (2 : Fin 3) * 64 + 1 * k.val = k.val; omega
  show V m c main_v0 (((cfg0.win 0).blk t).view.emb (ix3 (0 : Fin 1) s k)) = _
  rw [he]
  exact (congrFun (rows_array m c) _).trans (reshaped_at _ _ s k)

/-- The centre block at point t holds, for each node n, the centre row of node n in group t. -/
theorem centre_block (c : Dev nD) (t : Fin cfg0.N) (n : Fin 64) (k : Fin 64) :
    (iblk m c 1 t : Vec Ideal S1x64x64 .f32) (ix3 (0 : Fin 1) n k)
      = Cert.Gcn.rowsOf (m ((c : Thread nD τ).loc main_arg0)) (groupOf t) (Cert.Gcn.centre n) k := by
  obtain ⟨-, -, -, e0, e1, e2, -⟩ := block_indices t
  have he : ((cfg0.win 1).blk t).view.emb (ix3 (0 : Fin 1) n k) = ix3 (groupOf t) n k := by
    funext a; apply Fin.ext
    match a with
    | ⟨0, _⟩ => show win0_1.index t (0 : Fin 3) * 1 + 1 * 0 = t.val; omega
    | ⟨1, _⟩ => show win0_1.index t (1 : Fin 3) * 64 + 1 * n.val = n.val; omega
    | ⟨2, _⟩ => show win0_1.index t (2 : Fin 3) * 64 + 1 * k.val = k.val; omega
  show V m c main_v2 (((cfg0.win 1).blk t).view.emb (ix3 (0 : Fin 1) n k)) = _
  rw [he, Cert.Gcn.rowsOf_centre]
  exact (congrFun (centre_array m c) _).trans (sliced_at _ _ n k)

/-- The weights block at every point is the whole weights array. -/
theorem weights_block (c : Dev nD) (t : Fin cfg0.N) (o : Fin 128) (k : Fin 64) :
    (iblk m c 2 t : Vec Ideal S128x64 .f32) (ix2 o k)
      = Cert.Gcn.weights (m ((c : Thread nD τ).loc main_arg1)) o k := by
  obtain ⟨-, -, -, -, -, -, e0, e1, -⟩ := block_indices t
  have he : ((cfg0.win 2).blk t).view.emb (ix2 o k) = ix2 o k := by
    funext a; apply Fin.ext
    match a with
    | ⟨0, _⟩ => show win0_2.index t (0 : Fin 2) * 128 + 1 * o.val = o.val; omega
    | ⟨1, _⟩ => show win0_2.index t (1 : Fin 2) * 64 + 1 * k.val = k.val; omega
  show V m c main_arg1 (((cfg0.win 2).blk t).view.emb (ix2 o k)) = _
  rw [he, V_main_arg1]
  rfl

/-! ### From the blocks to the array -/

/-- What point t writes back is block t of the result array: entry (n, o) of the stored block is the kernel's
    result for the centre row of node n against the rows of group t and the weights. -/
theorem written_block (c : Dev nD) (t : Fin cfg0.N) :
    (dats m 0 c).flushed 3 t = ((cfg0.win 3).blk t).view.read (Elt Ideal)
      (Cert.Gcn.kerArr (m ((c : Thread nD τ).loc main_arg0)) (m ((c : Thread nD τ).loc main_arg1))) := by
  rw [Value.flushed3]
  unfold out0_3
  rw [View.canon_unit_zero zeros3]
  simp only [View.ld_unit_zero (S := S1x4096x64) zeros3, View.ld_unit_zero (S := S1x64x64) zeros3, View.ld_unit_zero (S := S128x64) zeros2]
  funext y
  obtain ⟨y0, n, o, rfl⟩ : ∃ (y0 : Fin 1) (n : Fin 64) (o : Fin 128), y = ix3 y0 n o := ⟨y 0, y 1, y 2, eq_ix3 y⟩
  obtain rfl : y0 = 0 := Subsingleton.elim _ _
  obtain ⟨-, -, -, -, -, -, -, -, e0, e1, e2⟩ := block_indices t
  have he : ((cfg0.win 3).blk t).view.emb (ix3 (0 : Fin 1) n o) = ix3 (groupOf t) n o := by
    funext a; apply Fin.ext
    match a with
    | ⟨0, _⟩ => show win0_3.index t (0 : Fin 3) * 1 + 1 * 0 = t.val; omega
    | ⟨1, _⟩ => show win0_3.index t (1 : Fin 3) * 64 + 1 * n.val = n.val; omega
    | ⟨2, _⟩ => show win0_3.index t (2 : Fin 3) * 128 + 1 * o.val = o.val; omega
  show k0_pay1 (F := Ideal) (k0_pay5 (iblk m c 0 t) (iblk m c 2 t)) (k0_pay6 (iblk m c 1 t)) (k0_pay7 (iblk m c 0 t) (iblk m c 1 t)) (ix3 (0 : Fin 1) n o)
    = Cert.Gcn.kerArr (m ((c : Thread nD τ).loc main_arg0)) (m ((c : Thread nD τ).loc main_arg1)) (((cfg0.win 3).blk t).view.emb (ix3 (0 : Fin 1) n o))
  rw [he, Cert.Gcn.kerArr_ix3]
  refine (Cert.KernelIdeal.GcnPay.pay_apply (iblk m c 0 t) (iblk m c 2 t) (iblk m c 1 t) n o).trans ?_
  have h0 : (fun (s : Fin 4096) (k : Fin 64) => (iblk m c 0 t : Vec Ideal S1x4096x64 .f32) (ix3 (0 : Fin 1) s k))
      = Cert.Gcn.rowsOf (m ((c : Thread nD τ).loc main_arg0)) (groupOf t) := funext fun s => funext fun k => rows_block m c t s k
  have h1 : (fun (k : Fin 64) => (iblk m c 1 t : Vec Ideal S1x64x64 .f32) (ix3 (0 : Fin 1) n k))
      = Cert.Gcn.rowsOf (m ((c : Thread nD τ).loc main_arg0)) (groupOf t) (Cert.Gcn.centre n) := funext fun k => centre_block m c t n k
  have h2 : (fun (o : Fin 128) (k : Fin 64) => (iblk m c 2 t : Vec Ideal S128x64 .f32) (ix2 o k))
      = Cert.Gcn.weights (m ((c : Thread nD τ).loc main_arg1)) := funext fun o => funext fun k => weights_block m c t o k
  rw [h0, h1, h2]

/-- Every index (g, n, o) of the result array lies in the block of point g. -/
theorem group_covers (i : S4x64x128.Idx) : ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 128 := (i 2).isLt
  obtain ⟨t, ht⟩ : ∃ t : Fin cfg0.N, t.val = (i 0).val := ⟨⟨(i 0).val, Nat.lt_of_lt_of_eq h0 N_0.symm⟩, rfl⟩
  refine ⟨t, flush0_3 t, ?_⟩
  obtain ⟨-, -, -, -, -, -, -, -, e0, e1, e2⟩ := block_indices t
  show i ∈ ((View.whole main_v3).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 128 ≤ (i 2).val ∧ (i 2).val < win0_3.index t (2 : Fin 3) * 128 + 128; omega

/-- So the result array after the run is the kernel's array of the two inputs. -/
theorem result_array (c : Dev nD) : (dats m 0 c).arrAt 3 cfg0.N
    = Cert.Gcn.kerArr (m ((c : Thread nD τ).loc main_arg0)) (m ((c : Thread nD τ).loc main_arg1)) :=
  (dats m 0 c).arrAt_eq_of_cover 3 _ (fun t _ => written_block m c t) group_covers

end Blocks

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3)
        = Cert.Gcn.kerArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  exact (θ_run defs _ _).mono (fun r h c => ⟨(h c).1.trans (result_array m c), (h c).2⟩) (Value.run_blocks m ρ)

end Cert.KernelIdeal.GcnValue

end
-- ==== Proof.RefArray.lean ====
/-
  The reference's result read at an index: entry (g, n, o) is the reference's result for the centre row of node n
  in group g; and its shifted degree stage at (g, s).
-/
import proofs.«139792_j69733089017908_2_alg».proof.Proof.Gen.ReferenceIdeal.Read
import proofs.«139792_j69733089017908_2_alg».proof.Proof.GcnSpec

noncomputable section

open scoped BigOperators

namespace Cert.ReferenceIdeal.GcnRef

open Cert.ReferenceIdeal Cert.ReferenceIdeal.Gen Idealize.ShloMosaic Idealize.ShloMosaic.ValueIdx

open Cert.ReferenceIdeal.Read

section Stages

/-! ### Stage 0: the rows of a group

  The first reshape reads the five-axis input in row-major order: position `(g, s, k)` of `[4, 4096, 64]` is
  position `(g, s / 64, s / 8 % 8, s % 8, k)` of `[4, 64, 8, 8, 64]`, which is entry `k` of row `s` of group `g`. -/

/-- The reshape's index map at explicit coordinates. -/
theorem idx_v0 (g : Fin 4) (s : Fin 4096) (k : Fin 64) :
    idx_main_v0 (ix3 g s k)
      = ix5 g (⟨s.val / 64, by omega⟩ : Fin 64) (⟨s.val / 8 % 8, by omega⟩ : Fin 8) (⟨s.val % 8, by omega⟩ : Fin 8) k := by
  funext a
  have hg := g.isLt; have hs := s.isLt; have hk := k.isLt
  match a with
  | ⟨0, _⟩ => exact Fin.ext (by show ((g.val * 4096 + s.val) * 64 + k.val) / 262144 = g.val; omega)
  | ⟨1, _⟩ => exact Fin.ext (by show ((g.val * 4096 + s.val) * 64 + k.val) / 4096 % 64 = s.val / 64; omega)
  | ⟨2, _⟩ => exact Fin.ext (by show ((g.val * 4096 + s.val) * 64 + k.val) / 512 % 8 = s.val / 8 % 8; omega)
  | ⟨3, _⟩ => exact Fin.ext (by show ((g.val * 4096 + s.val) * 64 + k.val) / 64 % 8 = s.val % 8; omega)
  | ⟨4, _⟩ => exact Fin.ext (by show ((g.val * 4096 + s.val) * 64 + k.val) % 64 = k.val; omega)

variable (x0 : (⟨S4x64x8x8x64, .f32⟩ : BufTy).Contents (Elt Ideal))

/-- Stage 0 at `(g, s, k)` is entry `k` of row `s` of group `g`. -/
theorem v0_at (g : Fin 4) (s : Fin 4096) (k : Fin 64) :
    val_main_v0 (F := Ideal) x0 (ix3 g s k) = Gcn.rowsOf x0 g s k := by
  rw [val_main_v0_apply, idx_v0]
  rfl

/-- Stage 1: the entry squared. -/
theorem v1_at (g : Fin 4) (s : Fin 4096) (k : Fin 64) :
    val_main_v1 (F := Ideal) x0 (ix3 g s k) = Gcn.rowsOf x0 g s k * Gcn.rowsOf x0 g s k := by
  rw [val_main_v1_apply, Ideal.mulf_def, v0_at]

/-- Stage 2: the row's sum of squares (the sum starts from zero). -/
theorem v2_at (g : Fin 4) (s : Fin 4096) :
    val_main_v2 (F := Ideal) x0 (ix2 g s) = ∑ k : Fin 64, Gcn.rowsOf x0 g s k * Gcn.rowsOf x0 g s k := by
  rw [val_main_v2_apply, val_main_cst_apply, Ideal.ofBits_def, Ideal.ofBits_zero_f32, zero_add]
  refine Finset.sum_congr rfl fun k _ => ?_
  have e : idx_main_v2 (ix2 g s) k = ix3 g s k :=
    funext fun a => Fin.ext (by match a with | ⟨0, _⟩ => rfl | ⟨1, _⟩ => rfl | ⟨2, _⟩ => rfl)
  rw [e, v1_at]

/-! ### Stages 3–8: the clamped norm and the normalised rows -/

/-- Stage 3: the sum of squares with a trailing axis of size one. -/
theorem v3_at (g : Fin 4) (s : Fin 4096) (z : Fin 1) :
    val_main_v3 (F := Ideal) x0 (ix3 g s z) = ∑ k : Fin 64, Gcn.rowsOf x0 g s k * Gcn.rowsOf x0 g s k := by
  have e : idx_main_v3 (ix3 g s z) = ix2 g s :=
    funext fun a => Fin.ext (by match a with | ⟨0, _⟩ => rfl | ⟨1, _⟩ => rfl)
  rw [val_main_v3_apply, e, v2_at]

/-- Stages 4–6: the square root of the sum of squares, clamped from below by `ε₁`: the row's `den`. -/
theorem v6_at (g : Fin 4) (s : Fin 4096) (z : Fin 1) :
    val_main_v6 (F := Ideal) x0 (ix3 g s z) = Gcn.den (Gcn.rowsOf x0 g s) := by
  rw [val_main_v6_apply, val_main_v4_apply, val_main_v5_apply, val_main_cst_0_apply, v3_at,
    Ideal.maximumf_def, Ideal.hostUnary_sqrt_def, Ideal.ofBits_def]
  rfl

/-- Stage 7: the clamped norm repeated along the feature axis. -/
theorem v7_at (g : Fin 4) (s : Fin 4096) (k : Fin 64) :
    val_main_v7 (F := Ideal) x0 (ix3 g s k) = Gcn.den (Gcn.rowsOf x0 g s) := by
  have e : idx_main_v7 (ix3 g s k) = ix3 g s (⟨0, Nat.one_pos⟩ : Fin 1) :=
    funext fun a => Fin.ext (by match a with | ⟨0, _⟩ => rfl | ⟨1, _⟩ => rfl | ⟨2, _⟩ => rfl)
  rw [val_main_v7_apply, e, v6_at]

/-- Stage 8: the normalised row. -/
theorem v8_at (g : Fin 4) (s : Fin 4096) (k : Fin 64) :
    val_main_v8 (F := Ideal) x0 (ix3 g s k) = Gcn.unit (Gcn.rowsOf x0 g s) k := by
  rw [val_main_v8_apply, Ideal.hostDivf_def, v0_at, v7_at]
  rfl

/-! ### Stages 9–14: the affinity, the degree and the scale -/

/-- Stage 9: the contraction of two normalised rows of one group over the features is their affinity. -/
theorem v9_at (g : Fin 4) (s t : Fin 4096) :
    val_main_v9 (F := Ideal) x0 (ix3 g s t) = Gcn.aff (Gcn.rowsOf x0 g) s t := by
  rw [val_main_v9_apply]
  refine Finset.sum_congr rfl fun k _ => ?_
  have el : lidx_main_v9 (ix3 g s t) k = ix3 g s k :=
    funext fun a => Fin.ext (by match a with | ⟨0, _⟩ => rfl | ⟨1, _⟩ => rfl | ⟨2, _⟩ => rfl)
  have er : ridx_main_v9 (ix3 g s t) k = ix3 g t k :=
    funext fun a => Fin.ext (by match a with | ⟨0, _⟩ => rfl | ⟨1, _⟩ => rfl | ⟨2, _⟩ => rfl)
  rw [el, er, v8_at, v8_at]

/-- Stage 10: a row's affinities summed (from zero): its degree. -/
theorem v10_at (g : Fin 4) (s : Fin 4096) :
    val_main_v10 (F := Ideal) x0 (ix2 g s) = Gcn.degR (Gcn.rowsOf x0 g) s := by
  rw [val_main_v10_apply, val_main_cst_1_apply, Ideal.ofBits_def, Ideal.ofBits_zero_f32, zero_add]
  refine Finset.sum_congr rfl fun t _ => ?_
  have e : idx_main_v10 (ix2 g s) t = ix3 g s t :=
    funext fun a => Fin.ext (by match a with | ⟨0, _⟩ => rfl | ⟨1, _⟩ => rfl | ⟨2, _⟩ => rfl)
  rw [e, v9_at]

/-- Stages 11–12: the degree shifted by `ε₂`. -/
theorem v12_at (g : Fin 4) (s : Fin 4096) :
    val_main_v12 (F := Ideal) x0 (ix2 g s) = Gcn.degR (Gcn.rowsOf x0 g) s + Gcn.eps2 := by
  rw [val_main_v12_apply, val_main_v11_apply, val_main_cst_2_apply, Ideal.addf_def, Ideal.ofBits_def, v10_at]
  rfl

/-- Stages 13–14: the shifted degree to the power `-1/2`: the row's scale. -/
theorem v14_at (g : Fin 4) (s : Fin 4096) :
    val_main_v14 (F := Ideal) x0 (ix2 g s) = Gcn.disR (Gcn.rowsOf x0 g) s := by
  rw [val_main_v14_apply, val_main_v13_apply, val_main_cst_3_apply, Ideal.hostPowf_def, Ideal.ofBits_def, v12_at]
  rfl

/-! ### Stages 15–20: the affinity scaled on both sides -/

/-- Stages 15–16: the scale of row `s`, repeated along `t`. -/
theorem v16_at (g : Fin 4) (s t : Fin 4096) :
    val_main_v16 (F := Ideal) x0 (ix3 g s t) = Gcn.disR (Gcn.rowsOf x0 g) s := by
  have e16 : idx_main_v16 (ix3 g s t) = ix3 g s (⟨0, Nat.one_pos⟩ : Fin 1) :=
    funext fun a => Fin.ext (by match a with | ⟨0, _⟩ => rfl | ⟨1, _⟩ => rfl | ⟨2, _⟩ => rfl)
  have e15 : idx_main_v15 (ix3 g s (⟨0, Nat.one_pos⟩ : Fin 1)) = ix2 g s :=
    funext fun a => Fin.ext (by match a with | ⟨0, _⟩ => rfl | ⟨1, _⟩ => rfl)
  rw [val_main_v16_apply, e16, val_main_v15_apply, e15, v14_at]

/-- Stages 18–19: the scale of row `t`, repeated along `s`. -/
theorem v19_at (g : Fin 4) (s t : Fin 4096) :
    val_main_v19 (F := Ideal) x0 (ix3 g s t) = Gcn.disR (Gcn.rowsOf x0 g) t := by
  have e19 : idx_main_v19 (ix3 g s t) = ix3 g (⟨0, Nat.one_pos⟩ : Fin 1) t :=
    funext fun a => Fin.ext (by match a with | ⟨0, _⟩ => rfl | ⟨1, _⟩ => rfl | ⟨2, _⟩ => rfl)
  have e18 : idx_main_v18 (ix3 g (⟨0, Nat.one_pos⟩ : Fin 1) t) = ix2 g t :=
    funext fun a => Fin.ext (by match a with | ⟨0, _⟩ => rfl | ⟨1, _⟩ => rfl)
  rw [val_main_v19_apply, e19, val_main_v18_apply, e18, v14_at]

/-- Stages 17 and 20: the affinity scaled by row `s` on the left, then by row `t` on the right. -/
theorem v20_at (g : Fin 4) (s t : Fin 4096) :
    val_main_v20 (F := Ideal) x0 (ix3 g s t)
      = (Gcn.disR (Gcn.rowsOf x0 g) s * Gcn.aff (Gcn.rowsOf x0 g) s t) * Gcn.disR (Gcn.rowsOf x0 g) t := by
  rw [val_main_v20_apply, val_main_v17_apply, Ideal.mulf_def, Ideal.mulf_def, v16_at, v9_at, v19_at]

/-! ### Stages 21–22: the contraction with the rows and with the weights -/

/-- Stage 21: the scaled affinity contracted with the rows over `t`. -/
theorem v21_at (g : Fin 4) (s : Fin 4096) (k : Fin 64) :
    val_main_v21 (F := Ideal) x0 (ix3 g s k)
      = ∑ t : Fin 4096, ((Gcn.disR (Gcn.rowsOf x0 g) s * Gcn.aff (Gcn.rowsOf x0 g) s t)
          * Gcn.disR (Gcn.rowsOf x0 g) t) * Gcn.rowsOf x0 g t k := by
  rw [val_main_v21_apply]
  refine Finset.sum_congr rfl fun t _ => ?_
  have el : lidx_main_v21 (ix3 g s k) t = ix3 g s t :=
    funext fun a => Fin.ext (by match a with | ⟨0, _⟩ => rfl | ⟨1, _⟩ => rfl | ⟨2, _⟩ => rfl)
  have er : ridx_main_v21 (ix3 g s k) t = ix3 g t k :=
    funext fun a => Fin.ext (by match a with | ⟨0, _⟩ => rfl | ⟨1, _⟩ => rfl | ⟨2, _⟩ => rfl)
  rw [el, er, v20_at, v0_at]

variable (x1 : (⟨S128x64, .f32⟩ : BufTy).Contents (Elt Ideal))

/-- Stage 22: contracted with the weights over the features: the reference's result for row `s`. -/
theorem v22_at (g : Fin 4) (s : Fin 4096) (o : Fin 128) :
    val_main_v22 (F := Ideal) x0 x1 (ix3 g s o) = Gcn.refOut (Gcn.rowsOf x0 g) (Gcn.weights x1) s o := by
  rw [val_main_v22_apply]
  refine Finset.sum_congr rfl fun k _ => ?_
  have el : lidx_main_v22 (ix3 g s o) k = ix3 g s k :=
    funext fun a => Fin.ext (by match a with | ⟨0, _⟩ => rfl | ⟨1, _⟩ => rfl | ⟨2, _⟩ => rfl)
  have er : ridx_main_v22 (ix3 g s o) k = ix2 o k :=
    funext fun a => Fin.ext (by match a with | ⟨0, _⟩ => rfl | ⟨1, _⟩ => rfl)
  rw [el, er, v21_at]
  rfl

/-! ### Stages 23–25: the centre row of each node -/

/-- The last three layout stages composed: position `(g, n, o)` of `[4, 64, 128]` is position `(g, n, 0, 0, o)` of
    `[4, 64, 1, 1, 128]`, the slice moves it to `(g, n, 4, 4, o)` of `[4, 64, 8, 8, 128]`, and the reshape reads that at
    `(g, 64 n + 8 · 4 + 4, o)` of `[4, 4096, 128]`: the centre row of node `n`. -/
theorem idx_v25 (g : Fin 4) (n : Fin 64) (o : Fin 128) :
    idx_main_v23 (idx_main_v24 (idx_main_v25 (ix3 g n o))) = ix3 g (Gcn.centre n) o := by
  funext a
  have hg := g.isLt; have hn := n.isLt; have ho := o.isLt
  match a with
  | ⟨0, _⟩ =>
    exact Fin.ext (by
      show ((((((g.val * 64 + n.val) * 128 + o.val) / 8192 * 64 + ((g.val * 64 + n.val) * 128 + o.val) / 128 % 64) * 8
        + (4 + 0)) * 8 + (4 + 0)) * 128 + ((g.val * 64 + n.val) * 128 + o.val) % 128) / 524288 = g.val
      omega)
  | ⟨1, _⟩ =>
    exact Fin.ext (by
      show ((((((g.val * 64 + n.val) * 128 + o.val) / 8192 * 64 + ((g.val * 64 + n.val) * 128 + o.val) / 128 % 64) * 8
        + (4 + 0)) * 8 + (4 + 0)) * 128 + ((g.val * 64 + n.val) * 128 + o.val) % 128) / 128 % 4096 = n.val * 64 + 36
      omega)
  | ⟨2, _⟩ =>
    exact Fin.ext (by
      show ((((((g.val * 64 + n.val) * 128 + o.val) / 8192 * 64 + ((g.val * 64 + n.val) * 128 + o.val) / 128 % 64) * 8
        + (4 + 0)) * 8 + (4 + 0)) * 128 + ((g.val * 64 + n.val) * 128 + o.val) % 128) % 128 = o.val
      omega)

/-- Stage 25 at `(g, n, o)`: the reference's result for the centre row of node `n` in group `g`. -/
theorem v25_at (g : Fin 4) (n : Fin 64) (o : Fin 128) :
    val_main_v25 (F := Ideal) x0 x1 (ix3 g n o)
      = Gcn.refOut (Gcn.rowsOf x0 g) (Gcn.weights x1) (Gcn.centre n) o := by
  rw [val_main_v25_apply, val_main_v24_apply, val_main_v23_apply, idx_v25, v22_at]

end Stages

/-- The shifted degree stage at `(g, s)` is the degree of row `s` of group `g` plus `ε₂`. -/
theorem deg_eq (x0 : (⟨S4x64x8x8x64, .f32⟩ : BufTy).Contents (Elt Ideal)) (g : Fin 4) (s : Fin 4096) :
    Cert.ReferenceIdeal.Read.val_main_v12 (F := Ideal) x0 (ix2 g s) = Cert.Gcn.degR (Cert.Gcn.rowsOf x0 g) s + Cert.Gcn.eps2 :=
  v12_at x0 g s

/-- The reference's result array is the specification's: entry by entry, through the stages above. -/
theorem val_eq (x0 : (⟨S4x64x8x8x64, .f32⟩ : BufTy).Contents (Elt Ideal)) (x1 : (⟨S128x64, .f32⟩ : BufTy).Contents (Elt Ideal)) :
    Cert.ReferenceIdeal.Read.val_main_v25 (F := Ideal) x0 x1 = Cert.Gcn.refArr x0 x1 := by
  funext i
  obtain ⟨g, n, o, rfl⟩ : ∃ (g : Fin 4) (n : Fin 64) (o : Fin 128), i = ix3 g n o := ⟨i 0, i 1, i 2, eq_ix3 i⟩
  rw [Gcn.refArr_ix3, v25_at]

end Cert.ReferenceIdeal.GcnRef

end
-- ==== Proof.PreDecode.lean ====
/-
  What the precondition says of the argument arrays: every entry of both is a real number, and the reference's
  shifted degree stage is positive at every (g, s).

  The predicate is a conjunction of three "for all" tests, each an and-reduction over a whole array of one-bit
  comparisons: |x| < +∞ over each input, and deg + ε₂ > 0 over the [4, 4096] degrees, the degrees computed by the
  very operations the reference applies (reshape, clamped normalisation, batched inner products, row sums), so the
  tested array IS the reference's stage.
-/
import proofs.«139792_j69733089017908_2_alg».proof.Proof.Gen.Pre_finite_inputs
import proofs.«139792_j69733089017908_2_alg».proof.Proof.Gen.ReferenceIdeal.Read
import Idealize.ShloMosaic.Lib.ReduceAll
import Idealize.ShloMosaic.PureOps.Ideal.Laws

noncomputable section

open scoped BigOperators

namespace Cert.Pre_finite_inputs.GcnPre

open Idealize.ShloMosaic Cert.Pre_finite_inputs

/-- The scalar shape has one index. -/
instance : Subsingleton S_.Idx := ⟨fun a b => funext fun d => d.elim0⟩

theorem and_one : ∀ (a b : BitVec 1), IntOp.andi a b = 1#1 ↔ a = 1#1 ∧ b = 1#1 := by decide

theorem ofBool_eq_one (b : Bool) : BitVec.ofBool b = 1#1 ↔ b = true := by cases b <;> decide

/-- An extended real whose magnitude is below +∞ is neither infinity. -/
theorem real_of_abs_lt (x : EReal) (h : Ideal.cmp .olt (max x (-x)) (Ideal.ofBits .f32 0x7F800000#32) = 1#1) :
    x ≠ ⊥ ∧ x ≠ ⊤ := by
  have hinf : Ideal.ofBits .f32 0x7F800000#32 = ⊤ := by simp [Ideal.ofBits, Ideal.ieee]
  rw [hinf] at h
  unfold Ideal.cmp at h
  rw [ofBool_eq_one] at h
  simp only [decide_eq_true_eq] at h
  constructor
  · rintro rfl; simp at h
  · rintro rfl; simp at h

/-- A value that tests greater than the zero word is positive. -/
theorem pos_of_gt (x : EReal) (h : Ideal.cmp .ogt x (Ideal.ofBits .f32 0x00000000#32) = 1#1) : 0 < x := by
  rw [Ideal.ofBits_zero_f32] at h
  unfold Ideal.cmp at h
  rw [ofBool_eq_one] at h
  simpa using h

theorem decode (A0 : FVec Ideal Cert.Pre_finite_inputs.S4x64x8x8x64 .f32) (A1 : FVec Ideal Cert.Pre_finite_inputs.S128x64 .f32)
    (h : Cert.Pre_finite_inputs.fn (F := Ideal) A0 A1 = fun _ => 1#1) :
    (∀ i, A0 i ≠ ⊥ ∧ A0 i ≠ ⊤) ∧ (∀ i, A1 i ≠ ⊥ ∧ A1 i ≠ ⊤)
      ∧ ∀ j : Cert.ReferenceIdeal.S4x4096.Idx, (0 : EReal) < Cert.ReferenceIdeal.Read.val_main_v12 (F := Ideal) A0 j := by
  have h0 := congrFun h ValueIdx.ix0
  unfold fn fn_part1 at h0
  simp only [andi, and_one] at h0
  obtain ⟨⟨hA0, hA1⟩, hdeg⟩ := h0
  refine ⟨fun i => ?_, fun i => ?_, fun j => ?_⟩
  · exact real_of_abs_lt (A0 i) (Host.reduce_andi_all _ _ _ _ _ hA0 i)
  · exact real_of_abs_lt (A1 i) (Host.reduce_andi_all _ _ _ _ _ hA1 i)
  · exact pos_of_gt _ (Host.reduce_andi_all _ _ _ _ _ hdeg j)

end Cert.Pre_finite_inputs.GcnPre

end
-- ==== Proof.lean ====
/-
  A graph message-passing layer over four independent groups of 4096 rows with 64 features. Each row is
  normalised by its clamped Euclidean norm; the affinity of two rows is the inner product of their normalised
  forms, a row's degree the sum of its affinities, and the layer is D^(-1/2) A D^(-1/2) X Wᵀ, of which only the
  centre row (n, 4, 4) of each node n is kept.

  The reference forms the 4096 × 4096 affinity and contracts it. The kernel, one grid point per group, never
  forms it: the degree of a row is its normalised form against the sum of all normalised rows, the rows are
  contracted into a 64 × 64 matrix first, then with the weights, and last with the 64 kept rows, which it
  receives as a second, sliced operand. Over the reals the two are one finite sum rearranged (Proof/GcnLaw.lean);
  over the extended reals the rearrangement needs every entry real and every shifted degree positive — the
  reference's power (deg + ε₂)^(-1/2) and the kernel's rsqrt part ways at a non-positive base — and that is
  what the precondition states (Proof/PreDecode.lean reads it back).

  The kernel's result array is read off its generated frame run block by block (Proof/KernelArray.lean over
  Proof/PayRows.lean and Proof/PayProducts.lean), the reference's off its generated run operation by
  operation (Proof/RefArray.lean); both are stated against the one specification Proof/GcnSpec.lean.
-/
import proofs.«139792_j69733089017908_2_alg».proof.Defs
import proofs.«139792_j69733089017908_2_alg».proof.Proof.Gen.Kernel
import proofs.«139792_j69733089017908_2_alg».proof.Proof.Gen.Kernel.Frame
import proofs.«139792_j69733089017908_2_alg».proof.Proof.Gen.KernelIdeal
import proofs.«139792_j69733089017908_2_alg».proof.Proof.Gen.KernelIdeal.Frame
import proofs.«139792_j69733089017908_2_alg».proof.Proof.Gen.ReferenceIdeal
import proofs.«139792_j69733089017908_2_alg».proof.Proof.Gen.ReferenceIdeal.Run
import proofs.«139792_j69733089017908_2_alg».proof.Proof.Gen.ReferenceIdeal.Read
import proofs.«139792_j69733089017908_2_alg».proof.Proof.Gen.Pre_finite_inputs
import proofs.«139792_j69733089017908_2_alg».proof.Proof.GcnLaw
import proofs.«139792_j69733089017908_2_alg».proof.Proof.KernelArray
import proofs.«139792_j69733089017908_2_alg».proof.Proof.RefArray
import proofs.«139792_j69733089017908_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the two result arrays are one function of the argument arrays: entry (g, n, o) of
    each is the layer's value at the centre row of node n in group g, the entries real and every shifted degree
    positive, so the rearrangement of the sums is licit. -/
theorem arrays_eq (A0 : FVec Ideal Cert.Pre_finite_inputs.S4x64x8x8x64 .f32) (A1 : FVec Ideal Cert.Pre_finite_inputs.S128x64 .f32)
    (h : Cert.Pre_finite_inputs.fn (F := Ideal) A0 A1 = fun _ => 1#1) :
    Cert.Gcn.refArr A0 A1 = Cert.Gcn.kerArr A0 A1 := by
  obtain ⟨hX, hW, hp⟩ := Cert.Pre_finite_inputs.GcnPre.decode A0 A1 h
  funext i
  obtain ⟨g, n, o, rfl⟩ : ∃ (g : Fin 4) (n : Fin 64) (o : Fin 128), i = ix3 g n o := ⟨i 0, i 1, i 2, eq_ix3 i⟩
  rw [Cert.Gcn.refArr_ix3, Cert.Gcn.kerArr_ix3]
  refine (Cert.Gcn.kerOut_eq_refOut (Cert.Gcn.rowsOf A0 g) (Cert.Gcn.weights A1) (fun s k => hX _) (fun o k => hW _)
    (fun s => ?_) (Cert.Gcn.centre n) o).symm
  rw [← Cert.ReferenceIdeal.GcnRef.deg_eq]
  exact hp _

theorem algebraic : Cert.algebraic_KernelIdeal_ReferenceIdeal := by
  intro m ρ m' ρ' hpre hagree
  refine ⟨fun c => Cert.Gcn.kerArr (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.GcnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.GcnRef.val_eq, (hagree c).1, (hagree c).2]
  exact arrays_eq _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
